-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x4096x64 : Shape := ⟨4, ![2, 16, 4096, 64]⟩
abbrev S256x64 : Shape := ⟨2, ![256, 64]⟩
abbrev S_ : Shape := ⟨0, ![]⟩

class Facts : Prop where
  bcast_S_S2x16x4096x64 : S_.BroadcastsInDim S2x16x4096x64 (![] : Fin 0 → Fin S2x16x4096x64.rank)
  reducesTo_S2x16x4096x64_S_d0_1_2_3 : S2x16x4096x64.ReducesTo [0, 1, 2, 3] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S2x16x4096x64 .f32) (main_arg1 : FVec F S2x16x4096x64 .f32) (main_arg2 : FVec F S256x64 .f32) : IVec S_ 1 :=
  let main_v0 : FVec F S2x16x4096x64 .f32 := Host.absf main_arg0
  let main_cst : FVec F S_ .f32 := constant S_ .f32 0x7F800000#32
  let main_v1 : FVec F S2x16x4096x64 .f32 := broadcastInDim S2x16x4096x64 ![] bcast_S_S2x16x4096x64 main_cst
  let main_v2 : IVec S2x16x4096x64 1 := cmpf .olt main_v0 main_v1
  let main_c : IVec S_ 1 := constantI S_ 1 1#1
  let main_v3 : IVec S_ 1 := (fun x v => Host.reduce IntOp.andi x v reducesTo_S2x16x4096x64_S_d0_1_2_3 h_S_) main_v2 main_c
  let main_v4 : FVec F S2x16x4096x64 .f32 := Host.absf main_arg1
  let main_cst_0 : FVec F S_ .f32 := constant S_ .f32 0x7F800000#32
  let main_v5 : FVec F S2x16x4096x64 .f32 := broadcastInDim S2x16x4096x64 ![] bcast_S_S2x16x4096x64 main_cst_0
  let main_v6 : IVec S2x16x4096x64 1 := cmpf .olt main_v4 main_v5
  let main_c_1 : IVec S_ 1 := constantI S_ 1 1#1
  let main_v7 : IVec S_ 1 := (fun x v => Host.reduce IntOp.andi x v reducesTo_S2x16x4096x64_S_d0_1_2_3 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  main_v13
-- ==== Kernel.lean ====
abbrev S2x16x4096x64 : Shape := ⟨4, ![2, 16, 4096, 64]⟩
abbrev S256x64 : Shape := ⟨2, ![256, 64]⟩
abbrev S2x16x4096x256 : Shape := ⟨4, ![2, 16, 4096, 256]⟩
abbrev S1x1x4096x64 : Shape := ⟨4, ![1, 1, 4096, 64]⟩
abbrev S1x1x4096x256 : Shape := ⟨4, ![1, 1, 4096, 256]⟩
abbrev S4096x64 : Shape := ⟨2, ![4096, 64]⟩
abbrev S4096x256 : Shape := ⟨2, ![4096, 256]⟩
abbrev S4096 : Shape := ⟨1, ![4096]⟩
abbrev S4096x1 : Shape := ⟨2, ![4096, 1]⟩
abbrev S1 : Shape := ⟨1, ![1]⟩
abbrev S1x1 : Shape := ⟨2, ![1, 1]⟩

abbrev nBuf : Space → Nat
  | .hbm => 5
  | .vmem => 10
  | .smem => 0
  | _ => 0

abbrev bufTy : (tb : Table) → Fin (tcTables nBuf tb) → BufTy
  | .hbm, ⟨0, _⟩ => ⟨S2x16x4096x64, .f32⟩
  | .hbm, ⟨1, _⟩ => ⟨S2x16x4096x64, .f32⟩
  | .hbm, ⟨2, _⟩ => ⟨S256x64, .f32⟩
  | .hbm, ⟨3, _⟩ => ⟨S2x16x4096x256, .f32⟩
  | .hbm, ⟨4, _⟩ => ⟨S2x16x4096x256, .f32⟩
  | .local _ .vmem, ⟨0, _⟩ => ⟨S1x1x4096x64, .f32⟩
  | .local _ .vmem, ⟨1, _⟩ => ⟨S1x1x4096x64, .f32⟩
  | .local _ .vmem, ⟨2, _⟩ => ⟨S256x64, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x64, .f32⟩
  | .local _ .vmem, ⟨6, _⟩ => ⟨S1x1x4096x64, .f32⟩
  | .local _ .vmem, ⟨7, _⟩ => ⟨S256x64, .f32⟩
  | .local _ .vmem, ⟨8, _⟩ => ⟨S1x1x4096x256, .f32⟩
  | .local _ .vmem, ⟨9, _⟩ => ⟨S1x1x4096x256, .f32⟩
  | _, _ => ⟨S2x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  inb_S256x64_S256x64_0_0 : ∀ a, (![0, 0] : Fin 2 → Nat) a + S256x64.size a ≤ S256x64.size a
  h_S256x64 : 0 < S256x64.numel
  bitsLt_bf16_f32 : FTy.bits .bf16 < FTy.bits .f32
  reduces_S4096x64_S4096 : S4096x64.Reduces [1] S4096
  shapeCasts_S4096_S4096x1 : S4096.ShapeCasts S4096x1
  reduces_S4096x256_S4096 : S4096x256.Reduces [1] S4096
  broadcasts_S4096x1_S4096x256 : S4096x1.Broadcasts S4096x256
  inb_S1x1x4096x256_S1x1x4096x256_0_0_0_0 : ∀ a, (![0, 0, 0, 0] : Fin 4 → Nat) a + S1x1x4096x256.size a ≤ S1x1x4096x256.size a
  h_S1x1x4096x256 : 0 < S1x1x4096x256.numel
  shapeCasts_S1x1x4096x256_S4096x256 : S1x1x4096x256.ShapeCasts S4096x256
  shapeCasts_S4096x256_S1x1x4096x256 : S4096x256.ShapeCasts S1x1x4096x256
  reduces_S4096x1_S1 : S4096x1.Reduces [0] S1
  shapeCasts_S1_S1x1 : S1.ShapeCasts S1x1
  broadcasts_S1x1_S4096x1 : S1x1.Broadcasts S4096x1
  dot_S4096x64_S256x64_S4096x256_1_1_0_0_n_n_wf : DotDims.WF S4096x64 S256x64 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096x64.size a ≤ S2x16x4096x64.size a
  hwx0_0 : ∀ i : grid0.Coords, EltTy.bits .f32 = 32 ∨ (Rect.block (s := S2x16x4096x64) S1x1x4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x256.size a ≤ S2x16x4096x256.size a
  hwx0_2 : ∀ i : grid0.Coords, EltTy.bits .f32 = 32 ∨ (Rect.block (s := S2x16x4096x256) S1x1x4096x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x4096x64.size a ≤ S2x16x4096x64.size a
  hwx1_0 : ∀ i : grid1.Coords, EltTy.bits .f32 = 32 ∨ (Rect.block (s := S2x16x4096x64) S1x1x4096x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x4096x256.size a ≤ S2x16x4096x256.size a
  hwx1_2 : ∀ i : grid1.Coords, EltTy.bits .f32 = 32 ∨ (Rect.block (s := S2x16x4096x256) S1x1x4096x256.size (cc1_transform_2 i) (hinb1_2 i)).WholeWords (EltTy.packing .f32)

variable [Facts₀]

def dot_S4096x64_S256x64_S4096x256_1_1_0_0_n_n : DotDims S4096x64 S256x64 S4096x256 where
  lhsContracting := [1]
  rhsContracting := [1]
  lhsNonContracting := [0]
  rhsNonContracting := [0]
  lhsBatch := []
  rhsBatch := []
  wf := dot_S4096x64_S256x64_S4096x256_1_1_0_0_n_n_wf

abbrev win0_0 : Pipeline.Window sig grid0 :=
  Pipeline.Window.ofSpec (Memref.whole main_arg0) S1x1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x1x4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1x4096x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x16x4096x64 : Shape := ⟨4, ![2, 16, 4096, 64]⟩
abbrev S256x64 : Shape := ⟨2, ![256, 64]⟩
abbrev S_ : Shape := ⟨0, ![]⟩
abbrev S2x16x4096x256 : Shape := ⟨4, ![2, 16, 4096, 256]⟩
abbrev S2x16x4096 : Shape := ⟨3, ![2, 16, 4096]⟩
abbrev S2x16x4096x1 : Shape := ⟨4, ![2, 16, 4096, 1]⟩
abbrev S2x16 : Shape := ⟨2, ![2, 16]⟩
abbrev S2x16x1x1 : Shape := ⟨4, ![2, 16, 1, 1]⟩

abbrev nBuf : Space → Nat
  | .hbm => 53
  | .vmem => 0
  | .smem => 0
  | _ => 0

abbrev bufTy : (tb : Table) → Fin (tcTables nBuf tb) → BufTy
  | .hbm, ⟨0, _⟩ => ⟨S2x16x4096x64, .f32⟩
  | .hbm, ⟨1, _⟩ => ⟨S2x16x4096x64, .f32⟩
  | .hbm, ⟨2, _⟩ => ⟨S256x64, .f32⟩
  | .hbm, ⟨3, _⟩ => ⟨S_, .f32⟩
  | .hbm, ⟨4, _⟩ => ⟨S2x16x4096x64, .f32⟩
  | .hbm, ⟨5, _⟩ => ⟨S2x16x4096x64, .f32⟩
  | .hbm, ⟨6, _⟩ => ⟨S2x16x4096x256, .f32⟩
  | .hbm, ⟨7, _⟩ => ⟨S2x16x4096x64, .f32⟩
  | .hbm, ⟨8, _⟩ => ⟨S_, .f32⟩
  | .hbm, ⟨9, _⟩ => ⟨S2x16x4096, .f32⟩
  | .hbm, ⟨10, _⟩ => ⟨S2x16x4096x1, .f32⟩
  | .hbm, ⟨11, _⟩ => ⟨S_, .f32⟩
  | .hbm, ⟨12, _⟩ => ⟨S2x16x4096x1, .f32⟩
  | .hbm, ⟨13, _⟩ => ⟨S2x16x4096x1, .f32⟩
  | .hbm, ⟨14, _⟩ => ⟨S_, .f32⟩
  | .hbm, ⟨15, _⟩ => ⟨S2x16x4096, .f32⟩
  | .hbm, ⟨16, _⟩ => ⟨S2x16x4096x1, .f32⟩
  | .hbm, ⟨17, _⟩ => ⟨S2x16x4096x256, .f32⟩
  | .hbm, ⟨18, _⟩ => ⟨S2x16x4096x256, .f32⟩
  | .hbm, ⟨19, _⟩ => ⟨S2x16x4096x256, .f32⟩
  | .hbm, ⟨20, _⟩ => ⟨S2x16x4096x256, .f32⟩
  | .hbm, ⟨21, _⟩ => ⟨S2x16x4096x256, .f32⟩
  | .hbm, ⟨22, _⟩ => ⟨S_, .f32⟩
  | .hbm, ⟨23, _⟩ => ⟨S2x16x4096x256, .f32⟩
  | .hbm, ⟨24, _⟩ => ⟨S2x16x4096x256, .f32⟩
  | .hbm, ⟨25, _⟩ => ⟨S_, .f32⟩
  | .hbm, ⟨26, _⟩ => ⟨S2x16x4096x256, .f32⟩
  | .hbm, ⟨27, _⟩ => ⟨S2x16x4096x256, .f32⟩
  | .hbm, ⟨28, _⟩ => ⟨S_, .f32⟩
  | .hbm, ⟨29, _⟩ => ⟨S2x16x4096x64, .f32⟩
  | .hbm, ⟨30, _⟩ => ⟨S2x16x4096x64, .f32⟩
  | .hbm, ⟨31, _⟩ => ⟨S2x16x4096x256, .f32⟩
  | .hbm, ⟨32, _⟩ => ⟨S2x16x4096x64, .f32⟩
  | .hbm, ⟨33, _⟩ => ⟨S_, .f32⟩
  | .hbm, ⟨34, _⟩ => ⟨S2x16x4096, .f32⟩
  | .hbm, ⟨35, _⟩ => ⟨S2x16x4096x1, .f32⟩
  | .hbm, ⟨36, _⟩ => ⟨S_, .f32⟩
  | .hbm, ⟨37, _⟩ => ⟨S2x16x4096x1, .f32⟩
  | .hbm, ⟨38, _⟩ => ⟨S2x16x4096x1, .f32⟩
  | .hbm, ⟨39, _⟩ => ⟨S_, .f32⟩
  | .hbm, ⟨40, _⟩ => ⟨S2x16, .f32⟩
  | .hbm, ⟨41, _⟩ => ⟨S2x16x1x1, .f32⟩
  | .hbm, ⟨42, _⟩ => ⟨S2x16x4096x256, .f32⟩
  | .hbm, ⟨43, _⟩ => ⟨S2x16x4096x256, .f32⟩
  | .hbm, ⟨44, _⟩ => ⟨S2x16x4096x256, .f32⟩
  | .hbm, ⟨45, _⟩ => ⟨S2x16x4096x256, .f32⟩
  | .hbm, ⟨46, _⟩ => ⟨S2x16x4096x256, .f32⟩
  | .hbm, ⟨47, _⟩ => ⟨S_, .f32⟩
  | .hbm, ⟨48, _⟩ => ⟨S2x16x4096x256, .f32⟩
  | .hbm, ⟨49, _⟩ => ⟨S2x16x4096x256, .f32⟩
  | .hbm, ⟨50, _⟩ => ⟨S_, .f32⟩
  | .hbm, ⟨51, _⟩ => ⟨S2x16x4096x256, .f32⟩
  | .hbm, ⟨52, _⟩ => ⟨S2x16x4096x256, .f32⟩
  | _, _ => ⟨S2x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_cst_10 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]

class Facts₀ : Prop where
  bcast_S_S2x16x4096x64 : S_.BroadcastsInDim S2x16x4096x64 (![] : Fin 0 → Fin S2x16x4096x64.rank)
  reducesTo_S2x16x4096x64_S2x16x4096_d3 : S2x16x4096x64.ReducesTo [3] S2x16x4096
  h_S_ : 0 < S_.numel
  bcast_S2x16x4096_S2x16x4096x1_0_1_2 : S2x16x4096.BroadcastsInDim S2x16x4096x1 (![0, 1, 2] : Fin 3 → Fin S2x16x4096x1.rank)
  bcast_S_S2x16x4096x1 : S_.BroadcastsInDim S2x16x4096x1 (![] : Fin 0 → Fin S2x16x4096x1.rank)
  reducesTo_S2x16x4096x256_S2x16x4096_d3 : S2x16x4096x256.ReducesTo [3] S2x16x4096
  bcast_S2x16x4096x1_S2x16x4096x256_0_1_2_3 : S2x16x4096x1.BroadcastsInDim S2x16x4096x256 (![0, 1, 2, 3] : Fin 4 → Fin S2x16x4096x256.rank)
  bcast_S_S2x16x4096x256 : S_.BroadcastsInDim S2x16x4096x256 (![] : Fin 0 → Fin S2x16x4096x256.rank)
  reducesTo_S2x16x4096x256_S2x16_d2_3 : S2x16x4096x256.ReducesTo [2, 3] S2x16
  bcast_S2x16_S2x16x1x1_0_1 : S2x16.BroadcastsInDim S2x16x1x1 (![0, 1] : Fin 2 → Fin S2x16x1x1.rank)
  bcast_S2x16x1x1_S2x16x4096x256_0_1_2_3 : S2x16x1x1.BroadcastsInDim S2x16x4096x256 (![0, 1, 2, 3] : Fin 4 → Fin S2x16x4096x256.rank)
  dot_S2x16x4096x64_S256x64_S2x16x4096x256_3_1_012_0_n_n_wf : DotDims.WF S2x16x4096x64 S256x64 S2x16x4096x256 [3] [1] [0, 1, 2] [0] [] []

variable [Facts₀]

def dot_S2x16x4096x64_S256x64_S2x16x4096x256_3_1_012_0_n_n : DotDims S2x16x4096x64 S256x64 S2x16x4096x256 where
  lhsContracting := [3]
  rhsContracting := [1]
  lhsNonContracting := [0, 1, 2]
  rhsNonContracting := [0]
  lhsBatch := []
  rhsBatch := []
  wf := dot_S2x16x4096x64_S256x64_S2x16x4096x256_3_1_012_0_n_n_wf

class Facts : Prop extends Facts₀ where

variable [Facts]
-- ==== Proof.KernelRun.lean ====
/-
  The run of the two launches, read to the end: every weakly fair execution terminates without a fault, and the final
  memory holds, at the two result arrays, what the second region's exit contents hold there, and the three argument
  arrays as launched. The exit contents are the fold of the two regions' write-backs over the launch memory; the
  modules that follow read that fold at the two results.
-/
import proofs.«119411_j16381005266987_2_alg».proof.Proof.Gen.KernelIdeal.Frame

set_option maxRecDepth 16384

noncomputable section

namespace Cert.KernelIdeal.Features

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Both launches run, and the final memory is the second region's exit contents at every result and argument array
    (the arguments' being their launch contents). -/
theorem run_exit : θ_run defs (onTc (τ := τ) (main (F := F))) ⟨m, fun _ => 0, ρ⟩ (fun r => ∀ c : Dev nD,
      r.2.mem ((c.tc : Thread nD τ).loc main_v0) = W2 m ρ c (Proc.devRef .tc main_v0)
      ∧ r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v0 (by decide)),
       h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.Features

end
-- ==== Proof.Spec.lean ====
/-
  The positive random features of the softmax kernel, for ONE attention head.

  A head has 4096 tokens `X s ∈ EReal⁶⁴` and the projection has 256 rows `W j ∈ EReal⁶⁴`. With the scale
  `c = 64^(-1/4)` (carried by both programs as one f32 word), the projected logit of token `s` on row `j` is
  `∑_d X s d · W j d · c`; its stabiliser is half the scaled squared norm of the token, `c² / 2 · ∑_d (X s d)²`
  (`c² / 2 = 1/16`), plus a maximum of the logits: over the rows `j` for a query token, over every token and row of
  the head for a key token. The feature is `256^(-1/2) · (exp (logit − stabiliser) + ε)`.

  Two spellings of each are stated: one multiplies the scale into the projection row and subtracts the SUM of the two
  stabilising terms (`queryFused`, `keyFused`), the other multiplies it into the token and subtracts the two terms one
  after the other (`queryPlain`, `keyPlain`). They are joined in another module, where the tokens are real numbers.
  No program is mentioned here.
-/
import Idealize.ShloMosaic.PureOps.Ideal
import Idealize.ShloMosaic.Lib.ValueIdx

noncomputable section

open scoped BigOperators

namespace Cert.Performer

open Idealize.ShloMosaic Idealize.ShloMosaic.ValueIdx

/-- A head's tokens, and the projection's rows, as coordinate functions. -/
abbrev Tokens : Type := Fin 4096 → Fin 64 → EReal
abbrev Rows : Type := Fin 256 → Fin 64 → EReal

variable (X : Tokens) (W : Rows)

/-- The logit with the scale folded into the projection row: `∑_d X s d · (W j d · c)`. -/
def logitRowScaled (s : Fin 4096) (j : Fin 256) : EReal :=
  ∑ d : Fin 64, X s d * (W j d * Ideal.ofBits .f32 0x3EB504F3#32)

/-- The logit with the scale applied to the token: `∑_d (c · X s d) · W j d`. -/
def logitTokenScaled (s : Fin 4096) (j : Fin 256) : EReal :=
  ∑ d : Fin 64, (Ideal.ofBits .f32 0x3EB504F3#32 * X s d) * W j d

/-- Half the scaled squared norm of a token: `(1/16) · ∑_d (X s d)²`. -/
def halfSqNorm (s : Fin 4096) : EReal :=
  Ideal.ofBits .f32 0x3D800000#32 * ∑ d : Fin 64, X s d * X s d

/-- The maximum of a finite family, started from the word of `−∞`. -/
def maxOver {n : Nat} (f : Fin n → EReal) : EReal :=
  (Finset.univ : Finset (Fin n)).fold max (Ideal.ofBits .f32 0xFF800000#32) f

/-- `256^(-1/2) · (exp a + ε)`. -/
def feature (a : EReal) : EReal :=
  Ideal.ofBits .f32 0x3D800000#32 * (Ideal.exp a + Ideal.ofBits .f32 0x38D1B717#32)

/-- A query token's feature, the sum of the two stabilising terms subtracted at once. -/
def queryFused (s : Fin 4096) (j : Fin 256) : EReal :=
  feature (logitRowScaled X W s j - (halfSqNorm X s + maxOver fun j' => logitRowScaled X W s j'))

/-- A key token's feature, the sum of the two stabilising terms subtracted at once; the maximum is over the head. -/
def keyFused (s : Fin 4096) (j : Fin 256) : EReal :=
  feature (logitRowScaled X W s j
    - (halfSqNorm X s + maxOver fun s' => maxOver fun j' => logitRowScaled X W s' j'))

/-- A query token's feature, the two stabilising terms subtracted one after the other. -/
def queryPlain (s : Fin 4096) (j : Fin 256) : EReal :=
  feature (logitTokenScaled X W s j - halfSqNorm X s - maxOver fun j' => logitTokenScaled X W s j')

/-- A key token's feature, the two stabilising terms subtracted one after the other. -/
def keyPlain (s : Fin 4096) (j : Fin 256) : EReal :=
  feature (logitTokenScaled X W s j - halfSqNorm X s
    - maxOver fun s' => maxOver fun j' => logitTokenScaled X W s' j')

/-- Head `(b, h)` of a `[2, 16, 4096, 64]` array, and a `[256, 64]` array, as coordinate functions. -/
def headOf (A : (⟨4, ![2, 16, 4096, 64]⟩ : Shape).Idx → EReal) (b : Fin 2) (h : Fin 16) : Tokens :=
  fun s d => A (ix4 b h s d)
def rowsOf (B : (⟨2, ![256, 64]⟩ : Shape).Idx → EReal) : Rows := fun j d => B (ix2 j d)

/-- The whole `[2, 16, 4096, 256]` arrays of query and of key features. -/
def queryArray (A : (⟨4, ![2, 16, 4096, 64]⟩ : Shape).Idx → EReal) (B : (⟨2, ![256, 64]⟩ : Shape).Idx → EReal) :
    (⟨4, ![2, 16, 4096, 256]⟩ : Shape).Idx → EReal :=
  fun i => queryFused (headOf A (i 0) (i 1)) (rowsOf B) (i 2) (i 3)
def keyArray (A : (⟨4, ![2, 16, 4096, 64]⟩ : Shape).Idx → EReal) (B : (⟨2, ![256, 64]⟩ : Shape).Idx → EReal) :
    (⟨4, ![2, 16, 4096, 256]⟩ : Shape).Idx → EReal :=
  fun i => keyFused (headOf A (i 0) (i 1)) (rowsOf B) (i 2) (i 3)

end Cert.Performer

end
-- ==== Proof.BlocksQuery.lean ====
/-
  The query launch, from blocks to the array. The grid has one point per head `(b, h)`; at a point the token window
  holds head `(b, h)` of the token array (block `[1, 1, 4096, 64]` at block index `(b, h, 0, 0)`), the projection
  window the whole `[256, 64]` array, and the result window is block `(b, h, 0, 0)` of the `[2, 16, 4096, 256]` result.
  Given what the body's stored value is at an entry of its block (`hpay`), what a point writes back is its block of the
  array of query features of the arrays the region finds; the 32 blocks tile the result, so after the launch the result
  array is that array of features.
-/
import proofs.«119411_j16381005266987_2_alg».proof.Proof.Gen.KernelIdeal.Frame
import proofs.«119411_j16381005266987_2_alg».proof.Proof.Spec
import Idealize.ShloMosaic.Lib.Pipeline.Value
import Idealize.ShloMosaic.Lib.ValueIdx

set_option maxRecDepth 16384

noncomputable section

namespace Cert.KernelIdeal.Features

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Performer

variable (V : (c : Dev nD) → (b : Ref sig .tc) → Buf (Elt Ideal) ((c : Thread nD τ).loc b))

theorem zero_offsets4_0 : (![0, 0, 0, 0] : Fin 4 → Nat) = fun _ => 0 := funext fun a => by fin_cases a <;> rfl
theorem zero_offsets2_0 : (![0, 0] : Fin 2 → Nat) = fun _ => 0 := funext fun a => by fin_cases a <;> rfl

/-- The printed index maps over the grid: the token window and the result window sit at the same head, at block index
    zero along tokens and features; the projection window never moves. -/
theorem head_index_0 : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_2.index t (2 : Fin 4) = 0 ∧ win0_2.index t (3 : Fin 4) = 0
    ∧ win0_1.index t (0 : Fin 2) = 0 ∧ win0_1.index t (1 : Fin 2) = 0
    ∧ win0_2.index t (0 : Fin 4) < 2 ∧ win0_2.index t (1 : Fin 4) < 16 :=
  (by decide +kernel : ∀ t : Fin grid0.N, _)

/-- Every head is some point's. -/
theorem head_onto_0 : ∀ (b : Fin 2) (h : Fin 16), ∃ t : Fin cfg0.N,
    win0_2.index t (0 : Fin 4) = b.val ∧ win0_2.index t (1 : Fin 4) = h.val :=
  (by decide +kernel : ∀ (b : Fin 2) (h : Fin 16), ∃ t : Fin grid0.N,
    win0_2.index t (0 : Fin 4) = b.val ∧ win0_2.index t (1 : Fin 4) = h.val)

/-- The token window's block at the point of head `(b, h)` is that head of the token array. -/
theorem tokens_block_0 (c : Dev nD) (t : Fin cfg0.N) (b : Fin 2) (h : Fin 16)
    (hb : win0_2.index t (0 : Fin 4) = b.val) (hh : win0_2.index t (1 : Fin 4) = h.val) (s : Fin 4096) (d : Fin 64) :
    iblk0 V c 0 t (ix4 (0 : Fin 1) (0 : Fin 1) s d) = V c main_arg0 (ix4 b h s d) := by
  obtain ⟨e0, e1, e2, e3, -, -, -, -, -, -⟩ := head_index_0 t
  show V c main_arg0 (((cfg0.win 0).blk t).view.emb (ix4 (0 : Fin 1) (0 : Fin 1) s d)) = V c main_arg0 (ix4 b h s d)
  refine congrArg (V c main_arg0) (funext fun a => Fin.ext ?_)
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 4096 + 1 * s.val = s.val; omega
  | ⟨3, _⟩ => show win0_0.index t (3 : Fin 4) * 64 + 1 * d.val = d.val; omega

/-- The projection window's block is the projection array, at every point. -/
theorem rows_block_0 (c : Dev nD) (t : Fin cfg0.N) (j : Fin 256) (d : Fin 64) :
    iblk0 V c 1 t (ix2 j d) = V c main_arg2 (ix2 j d) := by
  obtain ⟨-, -, -, -, -, -, e6, e7, -, -⟩ := head_index_0 t
  show V c main_arg2 (((cfg0.win 1).blk t).view.emb (ix2 j d)) = V c main_arg2 (ix2 j d)
  refine congrArg (V c main_arg2) (funext fun a => Fin.ext ?_)
  match a with
  | ⟨0, _⟩ => show win0_1.index t (0 : Fin 2) * 256 + 1 * j.val = j.val; omega
  | ⟨1, _⟩ => show win0_1.index t (1 : Fin 2) * 64 + 1 * d.val = d.val; omega

/-- WHAT A POINT WRITES BACK is its block of the array of query features. -/
theorem flushed_query
    (hpay : ∀ (y0 : Vec Ideal S1x1x4096x64 .f32) (y1 : Vec Ideal S256x64 .f32) (s : Fin 4096) (j : Fin 256),
      k0_pay1 (F := Ideal) y0 y1 (ix4 (0 : Fin 1) (0 : Fin 1) s j)
        = queryFused (fun s d => y0 (ix4 (0 : Fin 1) (0 : Fin 1) s d)) (fun j d => y1 (ix2 j d)) s j)
    (c : Dev nD) (t : Fin cfg0.N) :
    (dat0 V c).flushed 2 t = ((cfg0.win 2).blk t).view.read (Elt Ideal) (queryArray (V c main_arg0) (V c main_arg2)) := by
  show (cfg0.win 2).cut (grid0.coords t) ((dat0 V c).after 2 t) = _
  rw [after0_2]
  unfold out0_2
  rw [View.canon_unit_zero zero_offsets4_0]
  simp only [View.ld_unit_zero (S := S1x1x4096x64) zero_offsets4_0, View.ld_unit_zero (S := S256x64) zero_offsets2_0]
  obtain ⟨-, -, -, -, e4, e5, -, -, hlt0, hlt1⟩ := head_index_0 t
  funext y
  obtain ⟨u, v, s, j, rfl⟩ : ∃ (u : Fin 1) (v : Fin 1) (s : Fin 4096) (j : Fin 256), y = ix4 u v s j :=
    ⟨y 0, y 1, y 2, y 3, eq_ix4 y⟩
  obtain rfl : u = 0 := Subsingleton.elim _ _
  obtain rfl : v = 0 := Subsingleton.elim _ _
  have hemb : ((cfg0.win 2).blk t).view.emb (ix4 (0 : Fin 1) (0 : Fin 1) s j)
      = ix4 (⟨win0_2.index t (0 : Fin 4), hlt0⟩ : Fin 2) (⟨win0_2.index t (1 : Fin 4), hlt1⟩ : Fin 16) s j :=
    funext fun a => Fin.ext (by
      match a with
      | ⟨0, _⟩ => show win0_2.index t (0 : Fin 4) * 1 + 1 * 0 = win0_2.index t (0 : Fin 4); omega
      | ⟨1, _⟩ => show win0_2.index t (1 : Fin 4) * 1 + 1 * 0 = win0_2.index t (1 : Fin 4); omega
      | ⟨2, _⟩ => show win0_2.index t (2 : Fin 4) * 4096 + 1 * s.val = s.val; omega
      | ⟨3, _⟩ => show win0_2.index t (3 : Fin 4) * 256 + 1 * j.val = j.val; omega)
  show k0_pay1 (F := Ideal) (iblk0 V c 0 t) (iblk0 V c 1 t) (ix4 (0 : Fin 1) (0 : Fin 1) s j)
    = queryArray (V c main_arg0) (V c main_arg2) (((cfg0.win 2).blk t).view.emb (ix4 (0 : Fin 1) (0 : Fin 1) s j))
  rw [hpay, hemb]
  show queryFused _ _ s j = queryFused (headOf (V c main_arg0) _ _) (rowsOf (V c main_arg2)) s j
  have hX : (fun (s : Fin 4096) (d : Fin 64) => iblk0 V c 0 t (ix4 (0 : Fin 1) (0 : Fin 1) s d))
      = headOf (V c main_arg0) (⟨win0_2.index t (0 : Fin 4), hlt0⟩ : Fin 2) (⟨win0_2.index t (1 : Fin 4), hlt1⟩ : Fin 16) :=
    funext fun s => funext fun d => tokens_block_0 V c t _ _ rfl rfl s d
  have hW : (fun (j : Fin 256) (d : Fin 64) => iblk0 V c 1 t (ix2 j d)) = rowsOf (V c main_arg2) :=
    funext fun j => funext fun d => rows_block_0 V c t j d
  rw [hX, hW]

/-- An index of the result is in a point's block iff each coordinate is in the block's range on its axis. -/
theorem mem_block_0 (t : Fin cfg0.N) (i : S2x16x4096x256.Idx) :
    i ∈ ((cfg0.win 2).blk t).view.set ↔ ∀ a : Fin 4, win0_2.index t a * S1x1x4096x256.size a ≤ (i a).val
      ∧ (i a).val < win0_2.index t a * S1x1x4096x256.size a + S1x1x4096x256.size a := by
  show i ∈ ((View.whole main_v0).slice (win0_2.rect t)).set ↔ _
  rw [View.set_slice_whole, Rect.mem_set_unit]
  exact Iff.rfl

/-- The 32 blocks tile the result: an index lies in the block of its head's point. -/
theorem covered_0 (i : S2x16x4096x256.Idx) :
    ∃ t : Fin cfg0.N, (cfg0.win 2).flush t = true ∧ i ∈ ((cfg0.win 2).blk t).view.set := by
  obtain ⟨t, hb, hh⟩ := head_onto_0 ⟨(i 0).val, (i 0).isLt⟩ ⟨(i 1).val, (i 1).isLt⟩
  obtain ⟨-, -, -, -, e4, e5, -, -, -, -⟩ := head_index_0 t
  refine ⟨t, flush0_2 t, ?_⟩
  rw [mem_block_0]
  intro a
  have h2 : (i 2).val < 4096 := (i 2).isLt
  have h3 : (i 3).val < 256 := (i 3).isLt
  match a with
  | ⟨0, _⟩ => show win0_2.index t (0 : Fin 4) * 1 ≤ (i 0).val ∧ (i 0).val < win0_2.index t (0 : Fin 4) * 1 + 1
              simp only [] at hb; omega
  | ⟨1, _⟩ => show win0_2.index t (1 : Fin 4) * 1 ≤ (i 1).val ∧ (i 1).val < win0_2.index t (1 : Fin 4) * 1 + 1
              simp only [] at hh; omega
  | ⟨2, _⟩ => show win0_2.index t (2 : Fin 4) * 4096 ≤ (i 2).val ∧ (i 2).val < win0_2.index t (2 : Fin 4) * 4096 + 4096; omega
  | ⟨3, _⟩ => show win0_2.index t (3 : Fin 4) * 256 ≤ (i 3).val ∧ (i 3).val < win0_2.index t (3 : Fin 4) * 256 + 256; omega

/-- THE RESULT ARRAY after the launch is the array of query features of the arrays the region finds. -/
theorem final_query
    (hpay : ∀ (y0 : Vec Ideal S1x1x4096x64 .f32) (y1 : Vec Ideal S256x64 .f32) (s : Fin 4096) (j : Fin 256),
      k0_pay1 (F := Ideal) y0 y1 (ix4 (0 : Fin 1) (0 : Fin 1) s j)
        = queryFused (fun s d => y0 (ix4 (0 : Fin 1) (0 : Fin 1) s d)) (fun j d => y1 (ix2 j d)) s j)
    (c : Dev nD) :
    (dat0 V c).arrAt 2 cfg0.N = queryArray (V c main_arg0) (V c main_arg2) :=
  (dat0 V c).arrAt_eq_of_cover 2 _ (fun t _ => flushed_query V hpay c t) (covered_0)

end Cert.KernelIdeal.Features

end
-- ==== Proof.BlocksKey.lean ====
/-
  The key launch, from blocks to the array. The grid has one point per head `(b, h)`; at a point the token window
  holds head `(b, h)` of the token array (block `[1, 1, 4096, 64]` at block index `(b, h, 0, 0)`), the projection
  window the whole `[256, 64]` array, and the result window is block `(b, h, 0, 0)` of the `[2, 16, 4096, 256]` result.
  Given what the body's stored value is at an entry of its block (`hpay`), what a point writes back is its block of the
  array of key features of the arrays the region finds; the 32 blocks tile the result, so after the launch the result
  array is that array of features.
-/
import proofs.«119411_j16381005266987_2_alg».proof.Proof.Gen.KernelIdeal.Frame
import proofs.«119411_j16381005266987_2_alg».proof.Proof.Spec
import Idealize.ShloMosaic.Lib.Pipeline.Value
import Idealize.ShloMosaic.Lib.ValueIdx

set_option maxRecDepth 16384

noncomputable section

namespace Cert.KernelIdeal.Features

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Performer

variable (V : (c : Dev nD) → (b : Ref sig .tc) → Buf (Elt Ideal) ((c : Thread nD τ).loc b))

theorem zero_offsets4_1 : (![0, 0, 0, 0] : Fin 4 → Nat) = fun _ => 0 := funext fun a => by fin_cases a <;> rfl
theorem zero_offsets2_1 : (![0, 0] : Fin 2 → Nat) = fun _ => 0 := funext fun a => by fin_cases a <;> rfl

/-- The printed index maps over the grid: the token window and the result window sit at the same head, at block index
    zero along tokens and features; the projection window never moves. -/
theorem head_index_1 : ∀ t : Fin cfg1.N,
    win1_0.index t (0 : Fin 4) = win1_2.index t (0 : Fin 4) ∧ win1_0.index t (1 : Fin 4) = win1_2.index t (1 : Fin 4)
    ∧ win1_0.index t (2 : Fin 4) = 0 ∧ win1_0.index t (3 : Fin 4) = 0
    ∧ win1_2.index t (2 : Fin 4) = 0 ∧ win1_2.index t (3 : Fin 4) = 0
    ∧ win1_1.index t (0 : Fin 2) = 0 ∧ win1_1.index t (1 : Fin 2) = 0
    ∧ win1_2.index t (0 : Fin 4) < 2 ∧ win1_2.index t (1 : Fin 4) < 16 :=
  (by decide +kernel : ∀ t : Fin grid1.N, _)

/-- Every head is some point's. -/
theorem head_onto_1 : ∀ (b : Fin 2) (h : Fin 16), ∃ t : Fin cfg1.N,
    win1_2.index t (0 : Fin 4) = b.val ∧ win1_2.index t (1 : Fin 4) = h.val :=
  (by decide +kernel : ∀ (b : Fin 2) (h : Fin 16), ∃ t : Fin grid1.N,
    win1_2.index t (0 : Fin 4) = b.val ∧ win1_2.index t (1 : Fin 4) = h.val)

/-- The token window's block at the point of head `(b, h)` is that head of the token array. -/
theorem tokens_block_1 (c : Dev nD) (t : Fin cfg1.N) (b : Fin 2) (h : Fin 16)
    (hb : win1_2.index t (0 : Fin 4) = b.val) (hh : win1_2.index t (1 : Fin 4) = h.val) (s : Fin 4096) (d : Fin 64) :
    iblk1 V c 0 t (ix4 (0 : Fin 1) (0 : Fin 1) s d) = V c main_arg1 (ix4 b h s d) := by
  obtain ⟨e0, e1, e2, e3, -, -, -, -, -, -⟩ := head_index_1 t
  show V c main_arg1 (((cfg1.win 0).blk t).view.emb (ix4 (0 : Fin 1) (0 : Fin 1) s d)) = V c main_arg1 (ix4 b h s d)
  refine congrArg (V c main_arg1) (funext fun a => Fin.ext ?_)
  match a with
  | ⟨0, _⟩ => show win1_0.index t (0 : Fin 4) * 1 + 1 * 0 = b.val; omega
  | ⟨1, _⟩ => show win1_0.index t (1 : Fin 4) * 1 + 1 * 0 = h.val; omega
  | ⟨2, _⟩ => show win1_0.index t (2 : Fin 4) * 4096 + 1 * s.val = s.val; omega
  | ⟨3, _⟩ => show win1_0.index t (3 : Fin 4) * 64 + 1 * d.val = d.val; omega

/-- The projection window's block is the projection array, at every point. -/
theorem rows_block_1 (c : Dev nD) (t : Fin cfg1.N) (j : Fin 256) (d : Fin 64) :
    iblk1 V c 1 t (ix2 j d) = V c main_arg2 (ix2 j d) := by
  obtain ⟨-, -, -, -, -, -, e6, e7, -, -⟩ := head_index_1 t
  show V c main_arg2 (((cfg1.win 1).blk t).view.emb (ix2 j d)) = V c main_arg2 (ix2 j d)
  refine congrArg (V c main_arg2) (funext fun a => Fin.ext ?_)
  match a with
  | ⟨0, _⟩ => show win1_1.index t (0 : Fin 2) * 256 + 1 * j.val = j.val; omega
  | ⟨1, _⟩ => show win1_1.index t (1 : Fin 2) * 64 + 1 * d.val = d.val; omega

/-- WHAT A POINT WRITES BACK is its block of the array of key features. -/
theorem flushed_key
    (hpay : ∀ (y0 : Vec Ideal S1x1x4096x64 .f32) (y1 : Vec Ideal S256x64 .f32) (s : Fin 4096) (j : Fin 256),
      k1_pay1 (F := Ideal) y0 y1 (ix4 (0 : Fin 1) (0 : Fin 1) s j)
        = keyFused (fun s d => y0 (ix4 (0 : Fin 1) (0 : Fin 1) s d)) (fun j d => y1 (ix2 j d)) s j)
    (c : Dev nD) (t : Fin cfg1.N) :
    (dat1 V c).flushed 2 t = ((cfg1.win 2).blk t).view.read (Elt Ideal) (keyArray (V c main_arg1) (V c main_arg2)) := by
  show (cfg1.win 2).cut (grid1.coords t) ((dat1 V c).after 2 t) = _
  rw [after1_2]
  unfold out1_2
  rw [View.canon_unit_zero zero_offsets4_1]
  simp only [View.ld_unit_zero (S := S1x1x4096x64) zero_offsets4_1, View.ld_unit_zero (S := S256x64) zero_offsets2_1]
  obtain ⟨-, -, -, -, e4, e5, -, -, hlt0, hlt1⟩ := head_index_1 t
  funext y
  obtain ⟨u, v, s, j, rfl⟩ : ∃ (u : Fin 1) (v : Fin 1) (s : Fin 4096) (j : Fin 256), y = ix4 u v s j :=
    ⟨y 0, y 1, y 2, y 3, eq_ix4 y⟩
  obtain rfl : u = 0 := Subsingleton.elim _ _
  obtain rfl : v = 0 := Subsingleton.elim _ _
  have hemb : ((cfg1.win 2).blk t).view.emb (ix4 (0 : Fin 1) (0 : Fin 1) s j)
      = ix4 (⟨win1_2.index t (0 : Fin 4), hlt0⟩ : Fin 2) (⟨win1_2.index t (1 : Fin 4), hlt1⟩ : Fin 16) s j :=
    funext fun a => Fin.ext (by
      match a with
      | ⟨0, _⟩ => show win1_2.index t (0 : Fin 4) * 1 + 1 * 0 = win1_2.index t (0 : Fin 4); omega
      | ⟨1, _⟩ => show win1_2.index t (1 : Fin 4) * 1 + 1 * 0 = win1_2.index t (1 : Fin 4); omega
      | ⟨2, _⟩ => show win1_2.index t (2 : Fin 4) * 4096 + 1 * s.val = s.val; omega
      | ⟨3, _⟩ => show win1_2.index t (3 : Fin 4) * 256 + 1 * j.val = j.val; omega)
  show k1_pay1 (F := Ideal) (iblk1 V c 0 t) (iblk1 V c 1 t) (ix4 (0 : Fin 1) (0 : Fin 1) s j)
    = keyArray (V c main_arg1) (V c main_arg2) (((cfg1.win 2).blk t).view.emb (ix4 (0 : Fin 1) (0 : Fin 1) s j))
  rw [hpay, hemb]
  show keyFused _ _ s j = keyFused (headOf (V c main_arg1) _ _) (rowsOf (V c main_arg2)) s j
  have hX : (fun (s : Fin 4096) (d : Fin 64) => iblk1 V c 0 t (ix4 (0 : Fin 1) (0 : Fin 1) s d))
      = headOf (V c main_arg1) (⟨win1_2.index t (0 : Fin 4), hlt0⟩ : Fin 2) (⟨win1_2.index t (1 : Fin 4), hlt1⟩ : Fin 16) :=
    funext fun s => funext fun d => tokens_block_1 V c t _ _ rfl rfl s d
  have hW : (fun (j : Fin 256) (d : Fin 64) => iblk1 V c 1 t (ix2 j d)) = rowsOf (V c main_arg2) :=
    funext fun j => funext fun d => rows_block_1 V c t j d
  rw [hX, hW]

/-- An index of the result is in a point's block iff each coordinate is in the block's range on its axis. -/
theorem mem_block_1 (t : Fin cfg1.N) (i : S2x16x4096x256.Idx) :
    i ∈ ((cfg1.win 2).blk t).view.set ↔ ∀ a : Fin 4, win1_2.index t a * S1x1x4096x256.size a ≤ (i a).val
      ∧ (i a).val < win1_2.index t a * S1x1x4096x256.size a + S1x1x4096x256.size a := by
  show i ∈ ((View.whole main_v1).slice (win1_2.rect t)).set ↔ _
  rw [View.set_slice_whole, Rect.mem_set_unit]
  exact Iff.rfl

/-- The 32 blocks tile the result: an index lies in the block of its head's point. -/
theorem covered_1 (i : S2x16x4096x256.Idx) :
    ∃ t : Fin cfg1.N, (cfg1.win 2).flush t = true ∧ i ∈ ((cfg1.win 2).blk t).view.set := by
  obtain ⟨t, hb, hh⟩ := head_onto_1 ⟨(i 0).val, (i 0).isLt⟩ ⟨(i 1).val, (i 1).isLt⟩
  obtain ⟨-, -, -, -, e4, e5, -, -, -, -⟩ := head_index_1 t
  refine ⟨t, flush1_2 t, ?_⟩
  rw [mem_block_1]
  intro a
  have h2 : (i 2).val < 4096 := (i 2).isLt
  have h3 : (i 3).val < 256 := (i 3).isLt
  match a with
  | ⟨0, _⟩ => show win1_2.index t (0 : Fin 4) * 1 ≤ (i 0).val ∧ (i 0).val < win1_2.index t (0 : Fin 4) * 1 + 1
              simp only [] at hb; omega
  | ⟨1, _⟩ => show win1_2.index t (1 : Fin 4) * 1 ≤ (i 1).val ∧ (i 1).val < win1_2.index t (1 : Fin 4) * 1 + 1
              simp only [] at hh; omega
  | ⟨2, _⟩ => show win1_2.index t (2 : Fin 4) * 4096 ≤ (i 2).val ∧ (i 2).val < win1_2.index t (2 : Fin 4) * 4096 + 4096; omega
  | ⟨3, _⟩ => show win1_2.index t (3 : Fin 4) * 256 ≤ (i 3).val ∧ (i 3).val < win1_2.index t (3 : Fin 4) * 256 + 256; omega

/-- THE RESULT ARRAY after the launch is the array of key features of the arrays the region finds. -/
theorem final_key
    (hpay : ∀ (y0 : Vec Ideal S1x1x4096x64 .f32) (y1 : Vec Ideal S256x64 .f32) (s : Fin 4096) (j : Fin 256),
      k1_pay1 (F := Ideal) y0 y1 (ix4 (0 : Fin 1) (0 : Fin 1) s j)
        = keyFused (fun s d => y0 (ix4 (0 : Fin 1) (0 : Fin 1) s d)) (fun j d => y1 (ix2 j d)) s j)
    (c : Dev nD) :
    (dat1 V c).arrAt 2 cfg1.N = keyArray (V c main_arg1) (V c main_arg2) :=
  (dat1 V c).arrAt_eq_of_cover 2 _ (fun t _ => flushed_key V hpay c t) (covered_1)

end Cert.KernelIdeal.Features

end
-- ==== Proof.KernelValue.lean ====
/-
  The two launches' results as arrays of features of the ARGUMENTS. The second region's exit contents at the first
  result are the first region's (the second launch does not write it), which are the query features of the arrays the
  first region finds: the launch memory. At the second result they are the key features of the arrays the second region
  finds; its token array and the projection are not written by the first launch, so they too are the launch memory's.
  Stated given what each body's stored value is at an entry of its block (`hq`, `hk`).
-/
import proofs.«119411_j16381005266987_2_alg».proof.Proof.KernelRun
import proofs.«119411_j16381005266987_2_alg».proof.Proof.BlocksQuery
import proofs.«119411_j16381005266987_2_alg».proof.Proof.BlocksKey

set_option maxRecDepth 16384

noncomputable section

namespace Cert.KernelIdeal.Features

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Performer

variable (m : (ℓ : Loc nD τ sig) → Buf (Elt Ideal) ℓ) (ρ : Dev nD → PrngReg)

/-- What the second region finds at its token array and at the projection is the launch memory. -/
theorem entry1_tokens (c : Dev nD) : V1 m ρ c main_arg1 = m ((c.tc : Thread nD τ).loc main_arg1) :=
  (W1_of_ne m ρ c main_arg1 (by decide)).trans rfl
theorem entry1_rows (c : Dev nD) : V1 m ρ c main_arg2 = m ((c.tc : Thread nD τ).loc main_arg2) :=
  ((W1_arr m ρ c 1).trans (((dat0 (V0 m ρ) c).arrAt_in 1 rfl _).trans (A_eq0 (V0 m ρ) c 1))).trans rfl

/-- The exit contents at the first result: the query features of the query tokens and the projection. -/
theorem exit_query
    (hq : ∀ (y0 : Vec Ideal S1x1x4096x64 .f32) (y1 : Vec Ideal S256x64 .f32) (s : Fin 4096) (j : Fin 256),
      k0_pay1 (F := Ideal) y0 y1 (ix4 (0 : Fin 1) (0 : Fin 1) s j)
        = queryFused (fun s d => y0 (ix4 (0 : Fin 1) (0 : Fin 1) s d)) (fun j d => y1 (ix2 j d)) s j)
    (c : Dev nD) :
    W2 m ρ c (Proc.devRef .tc main_v0)
      = queryArray (m ((c.tc : Thread nD τ).loc main_arg0)) (m ((c.tc : Thread nD τ).loc main_arg2)) :=
  calc W2 m ρ c (Proc.devRef .tc main_v0)
    _ = W1 m ρ c (Proc.devRef .tc main_v0) := W2_of_ne m ρ c main_v0 (by decide)
    _ = (dat0 (V0 m ρ) c).arrAt 2 cfg0.N := W1_arr m ρ c 2
    _ = queryArray (V0 m ρ c main_arg0) (V0 m ρ c main_arg2) := final_query (V0 m ρ) hq c
    _ = queryArray (m ((c.tc : Thread nD τ).loc main_arg0)) (m ((c.tc : Thread nD τ).loc main_arg2)) := rfl

/-- The exit contents at the second result: the key features of the key tokens and the projection. -/
theorem exit_key
    (hk : ∀ (y0 : Vec Ideal S1x1x4096x64 .f32) (y1 : Vec Ideal S256x64 .f32) (s : Fin 4096) (j : Fin 256),
      k1_pay1 (F := Ideal) y0 y1 (ix4 (0 : Fin 1) (0 : Fin 1) s j)
        = keyFused (fun s d => y0 (ix4 (0 : Fin 1) (0 : Fin 1) s d)) (fun j d => y1 (ix2 j d)) s j)
    (c : Dev nD) :
    W2 m ρ c (Proc.devRef .tc main_v1)
      = keyArray (m ((c.tc : Thread nD τ).loc main_arg1)) (m ((c.tc : Thread nD τ).loc main_arg2)) :=
  calc W2 m ρ c (Proc.devRef .tc main_v1)
    _ = (dat1 (V1 m ρ) c).arrAt 2 cfg1.N := W2_arr m ρ c 2
    _ = keyArray (V1 m ρ c main_arg1) (V1 m ρ c main_arg2) := final_key (V1 m ρ) hk c
    _ = keyArray (m ((c.tc : Thread nD τ).loc main_arg1)) (m ((c.tc : Thread nD τ).loc main_arg2)) := by
        rw [entry1_tokens, entry1_rows]

/-- THE RUN: both launches terminate without a fault, the first result array ends at the query features and the
    second at the key features of the argument arrays, which end as launched. -/
theorem run_features
    (hq : ∀ (y0 : Vec Ideal S1x1x4096x64 .f32) (y1 : Vec Ideal S256x64 .f32) (s : Fin 4096) (j : Fin 256),
      k0_pay1 (F := Ideal) y0 y1 (ix4 (0 : Fin 1) (0 : Fin 1) s j)
        = queryFused (fun s d => y0 (ix4 (0 : Fin 1) (0 : Fin 1) s d)) (fun j d => y1 (ix2 j d)) s j)
    (hk : ∀ (y0 : Vec Ideal S1x1x4096x64 .f32) (y1 : Vec Ideal S256x64 .f32) (s : Fin 4096) (j : Fin 256),
      k1_pay1 (F := Ideal) y0 y1 (ix4 (0 : Fin 1) (0 : Fin 1) s j)
        = keyFused (fun s d => y0 (ix4 (0 : Fin 1) (0 : Fin 1) s d)) (fun j d => y1 (ix2 j d)) s j) :
    θ_run defs (onTc (τ := τ) (main (F := Ideal))) ⟨m, fun _ => 0, ρ⟩ (fun r => ∀ c : Dev nD,
      r.2.mem ((c.tc : Thread nD τ).loc main_v0)
        = queryArray (m ((c.tc : Thread nD τ).loc main_arg0)) (m ((c.tc : Thread nD τ).loc main_arg2))
      ∧ r.2.mem ((c.tc : Thread nD τ).loc main_v1)
        = keyArray (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (exit_query m ρ hq c), (h c).2.1.trans (exit_key m ρ hk c), (h c).2.2⟩)
    (run_exit m ρ)

end Cert.KernelIdeal.Features

end
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.PayloadParts.lean ====
/-
  The pieces both feature computations are made of, each read at an index.

  Both bodies compute, from a block of tokens `x : [4096, 64]` and the scaled projection rows `w : [256, 64]`,
  the logits `x · wᵀ : [4096, 256]` (a matrix product accumulated into zero: entry `(s, j)` is `∑_d x s d · w j d`), the
  squared norm of each token (a sum along a row of `x ⊙ x`), and maxima of the logits: along a row, and, for the key
  features, of the column of row maxima. They end alike: a column `c : [4096, 1]` of stabilisers is repeated along the
  rows' 256 entries, subtracted from the logits, and `a ↦ 256^(-1/2) · (exp a + ε)` is applied entrywise before the
  matrix is stored as a `[1, 1, 4096, 256]` block. Each lemma is stated over an arbitrary vector of the literal shape.
-/
import proofs.«119411_j16381005266987_2_alg».proof.Proof.Spec
import proofs.«119411_j16381005266987_2_alg».proof.Proof.LibKeepdims
import proofs.«119411_j16381005266987_2_alg».proof.Proof.Gen.KernelIdeal
import Idealize.ShloMosaic.PureOps.Ideal.Laws

noncomputable section

open scoped BigOperators

namespace Cert.Performer

open Idealize.ShloMosaic Idealize.ShloMosaic.ValueIdx Cert.KernelIdeal Cert.KernelIdeal.Gen Cert.Keepdims

/-! ## The logits: a matrix product into the zero matrix -/

/-- On the token operand's row axis the product reads the result's row. -/
theorem logits_lhs_row (i : S4096x256.Idx) (q : dot_S4096x64_S256x64_S4096x256_1_1_0_0_n_n.contr.Idx) :
    (dot_S4096x64_S256x64_S4096x256_1_1_0_0_n_n.lhsIdx i q 0).val = (i 0).val := by
  unfold DotDims.lhsIdx
  rw [dif_neg (show ¬(0 : Fin S4096x64.rank) ∈ dot_S4096x64_S256x64_S4096x256_1_1_0_0_n_n.lhsBatch by decide),
    dif_pos (show (0 : Fin S4096x64.rank) ∈ dot_S4096x64_S256x64_S4096x256_1_1_0_0_n_n.lhsNonContracting by decide)]
  rfl

/-- On the projection operand's row axis the product reads the result's column. -/
theorem logits_rhs_row (i : S4096x256.Idx) (q : dot_S4096x64_S256x64_S4096x256_1_1_0_0_n_n.contr.Idx) :
    (dot_S4096x64_S256x64_S4096x256_1_1_0_0_n_n.rhsIdx i q 0).val = (i 1).val := by
  unfold DotDims.rhsIdx
  rw [dif_neg (show ¬(0 : Fin S256x64.rank) ∈ dot_S4096x64_S256x64_S4096x256_1_1_0_0_n_n.rhsBatch by decide),
    dif_pos (show (0 : Fin S256x64.rank) ∈ dot_S4096x64_S256x64_S4096x256_1_1_0_0_n_n.rhsNonContracting by decide)]
  rfl

/-- Entry `(s, j)` of the product of `x : [4096, 64]` with the transpose of `w : [256, 64]`, accumulated into zero, is
    `∑_d x s d · w j d`: the contraction runs over the one shared axis of extent 64. -/
theorem logits_apply {φ₁ φ₂ : FTy} (x : FVec Ideal S4096x64 φ₁) (w : FVec Ideal S256x64 φ₂) (s : Fin 4096) (j : Fin 256) :
    matmul dot_S4096x64_S256x64_S4096x256_1_1_0_0_n_n none x w (constant (F := Ideal) S4096x256 .f32 0x00000000#32) (ix2 s j)
      = ∑ d : Fin 64, x (ix2 s d) * w (ix2 j d) := by
  simp only [matmul]
  rw [Ideal.matmul_constant_zero_apply,
    ← Equiv.sum_comp (contrEquiv1 dot_S4096x64_S256x64_S4096x256_1_1_0_0_n_n 64 rfl rfl).symm]
  refine Finset.sum_congr rfl fun k _ => ?_
  have hk := contrEquiv1_symm_val dot_S4096x64_S256x64_S4096x256_1_1_0_0_n_n 64 rfl rfl k
  have el : dot_S4096x64_S256x64_S4096x256_1_1_0_0_n_n.lhsIdx (ix2 s j)
      ((contrEquiv1 dot_S4096x64_S256x64_S4096x256_1_1_0_0_n_n 64 rfl rfl).symm k) = ix2 s k :=
    funext fun a => Fin.ext (by
      match a with
      | ⟨0, _⟩ => exact logits_lhs_row _ _
      | ⟨1, _⟩ => exact (dot_S4096x64_S256x64_S4096x256_1_1_0_0_n_n.lhsIdx_val_of_single rfl _ _).trans hk)
  have er : dot_S4096x64_S256x64_S4096x256_1_1_0_0_n_n.rhsIdx (ix2 s j)
      ((contrEquiv1 dot_S4096x64_S256x64_S4096x256_1_1_0_0_n_n 64 rfl rfl).symm k) = ix2 j k :=
    funext fun a => Fin.ext (by
      match a with
      | ⟨0, _⟩ => exact logits_rhs_row _ _
      | ⟨1, _⟩ => exact (dot_S4096x64_S256x64_S4096x256_1_1_0_0_n_n.rhsIdx_val_of_single rfl _ _).trans hk)
  rw [el, er]

/-! ## Sums and maxima along an axis -/

/-- The sum along each row of a `[4096, 64]` matrix, at row `s`: `∑_d x s d`. -/
theorem rowSum_apply (x : FVec Ideal S4096x64 .f32) (h : S4096x64.Reduces [1] S4096) (hφ : FKind.Formats .f32)
    (hacc : (0x00000000#32 : BitVec 32) = FKind.add.neutral .f32 hφ) (s : Fin 4096) :
    multiReduction .add [1] S4096 x 0x00000000#32 h hφ hacc (ix1 s) = ∑ d : Fin 64, x (ix2 s d) := by
  refine (Ideal.multiReduction_add_single x _ h hφ hacc (ix1 s)).trans ?_
  refine Finset.sum_congr rfl fun d _ => congrArg x ?_
  funext a
  match a with
  | ⟨0, _⟩ => rfl
  | ⟨1, _⟩ => rfl

/-- The maximum along each row of a `[4096, 256]` matrix, started from `−∞`, at row `s`. -/
theorem rowMax_apply (x : FVec Ideal S4096x256 .f32) (h : S4096x256.Reduces [1] S4096) (hφ : FKind.Formats .f32)
    (hacc : (0xFF800000#32 : BitVec 32) = FKind.maximumf.neutral .f32 hφ) (s : Fin 4096) :
    multiReduction .maximumf [1] S4096 x 0xFF800000#32 h hφ hacc (ix1 s) = maxOver fun j : Fin 256 => x (ix2 s j) := by
  refine (Ideal.multiReduction_maximumf_single x _ h hφ hacc (ix1 s)).trans ?_
  show (Finset.univ : Finset (Fin 256)).fold max (Ideal.ofBits .f32 0xFF800000#32) (x ∘ h.lift (ix1 s)) = _
  unfold maxOver
  refine Finset.fold_congr fun j _ => congrArg x ?_
  funext a
  match a with
  | ⟨0, _⟩ => rfl
  | ⟨1, _⟩ => rfl

/-- The maximum down a `[4096, 1]` column, started from `−∞`: its one entry. -/
theorem colMax_apply (x : FVec Ideal S4096x1 .f32) (h : S4096x1.Reduces [0] S1) (hφ : FKind.Formats .f32)
    (hacc : (0xFF800000#32 : BitVec 32) = FKind.maximumf.neutral .f32 hφ) :
    multiReduction .maximumf [0] S1 x 0xFF800000#32 h hφ hacc (ix1 (0 : Fin 1))
      = maxOver fun s : Fin 4096 => x (ix2 s (0 : Fin 1)) := by
  refine (Ideal.multiReduction_maximumf_single x _ h hφ hacc (ix1 (0 : Fin 1))).trans ?_
  show (Finset.univ : Finset (Fin 4096)).fold max (Ideal.ofBits .f32 0xFF800000#32) (x ∘ h.lift (ix1 (0 : Fin 1))) = _
  unfold maxOver
  refine Finset.fold_congr fun s _ => congrArg x ?_
  funext a
  match a with
  | ⟨0, _⟩ => rfl
  | ⟨1, _⟩ => rfl

/-! ## The pieces on a block of tokens and the projection rows

The tokens arrive as a `[1, 1, 4096, 64]` block `y0`, read as the matrix `(s, d) ↦ y0 (0, 0, s, d)`; the rows `y1` are
scaled by `c` entrywise before the product. A change of float format is the identity on extended reals. -/

/-- The logit of token `s` on row `j`, the scale folded into the row: `∑_d y0 (0, 0, s, d) · (y1 (j, d) · c)`. -/
theorem logit_block_apply (y0 : Vec Ideal S1x1x4096x64 .f32) (y1 : Vec Ideal S256x64 .f32)
    (hc : S1x1x4096x64.ShapeCasts S4096x64) (hb : FTy.bits .bf16 < FTy.bits .f32) (s : Fin 4096) (j : Fin 256) :
    matmul dot_S4096x64_S256x64_S4096x256_1_1_0_0_n_n none (truncf .bf16 (shapeCast S4096x64 y0 hc) hb)
        (truncf .bf16 (mulf y1 (broadcast S256x64 (Scalar.ofBits (F := Ideal) .f32 0x3EB504F3#32))) hb)
        (constant (F := Ideal) S4096x256 .f32 0x00000000#32) (ix2 s j)
      = logitRowScaled (fun s d => y0 (ix4 (0 : Fin 1) (0 : Fin 1) s d)) (fun j d => y1 (ix2 j d)) s j := by
  refine (logits_apply _ _ s j).trans ?_
  unfold logitRowScaled
  refine Finset.sum_congr rfl fun d _ => ?_
  show shapeCast S4096x64 y0 hc (ix2 s d) * (y1 (ix2 j d) * Ideal.ofBits .f32 0x3EB504F3#32) = _
  rw [shapeCast_11ab_ab_apply y0 hc s d]

/-- Half the scaled squared norm of token `s`, as the one-column matrix holds it: `(1/16) · ∑_d (y0 (0, 0, s, d))²`. -/
theorem halfSqNorm_block_apply (y0 : Vec Ideal S1x1x4096x64 .f32) (hc : S1x1x4096x64.ShapeCasts S4096x64)
    (hr : S4096x64.Reduces [1] S4096) (hφ : FKind.Formats .f32)
    (hacc : (0x00000000#32 : BitVec 32) = FKind.add.neutral .f32 hφ) (hk : S4096.ShapeCasts S4096x1) (s : Fin 4096) :
    mulf (broadcast S4096x1 (Scalar.ofBits (F := Ideal) .f32 0x3D800000#32))
        (shapeCast S4096x1
          (multiReduction .add [1] S4096 (mulf (shapeCast S4096x64 y0 hc) (shapeCast S4096x64 y0 hc)) 0x00000000#32 hr hφ hacc)
          hk) (ix2 s (0 : Fin 1))
      = halfSqNorm (fun s d => y0 (ix4 (0 : Fin 1) (0 : Fin 1) s d)) s := by
  unfold halfSqNorm
  refine (mulf_apply _ _ _).trans (congrArg (Ideal.ofBits .f32 0x3D800000#32 * ·) ?_)
  refine (shapeCast_a_a1_apply _ hk s 0).trans ?_
  refine (rowSum_apply _ hr hφ hacc s).trans ?_
  refine Finset.sum_congr rfl fun d _ => ?_
  show shapeCast S4096x64 y0 hc (ix2 s d) * shapeCast S4096x64 y0 hc (ix2 s d) = _
  rw [shapeCast_11ab_ab_apply y0 hc s d]

/-- The maximum of row `s` of a `[4096, 256]` matrix, as the one-column matrix of row maxima holds it. -/
theorem rowMax_column_apply (L : FVec Ideal S4096x256 .f32) (hr : S4096x256.Reduces [1] S4096) (hφ : FKind.Formats .f32)
    (hacc : (0xFF800000#32 : BitVec 32) = FKind.maximumf.neutral .f32 hφ) (hk : S4096.ShapeCasts S4096x1) (s : Fin 4096) :
    shapeCast S4096x1 (multiReduction .maximumf [1] S4096 L 0xFF800000#32 hr hφ hacc) hk (ix2 s (0 : Fin 1))
      = maxOver fun j : Fin 256 => L (ix2 s j) :=
  (shapeCast_a_a1_apply _ hk s 0).trans (rowMax_apply L hr hφ hacc s)

/-- The maximum over the whole `[4096, 256]` matrix, as every entry of the column built from it holds it: the maximum
    down the column of row maxima, one number, viewed as `[1, 1]` and repeated down the 4096 rows. -/
theorem headMax_column_apply (L : FVec Ideal S4096x256 .f32) (hr : S4096x256.Reduces [1] S4096) (hφ : FKind.Formats .f32)
    (hacc : (0xFF800000#32 : BitVec 32) = FKind.maximumf.neutral .f32 hφ) (hk : S4096.ShapeCasts S4096x1)
    (hr0 : S4096x1.Reduces [0] S1) (hφ0 : FKind.Formats .f32)
    (hacc0 : (0xFF800000#32 : BitVec 32) = FKind.maximumf.neutral .f32 hφ0) (h11 : S1.ShapeCasts S1x1)
    (hb1 : S1x1.Broadcasts S4096x1) (s : Fin 4096) :
    broadcastTo S4096x1
        (shapeCast S1x1
          (multiReduction .maximumf [0] S1
            (shapeCast S4096x1 (multiReduction .maximumf [1] S4096 L 0xFF800000#32 hr hφ hacc) hk) 0xFF800000#32 hr0 hφ0 hacc0)
          h11) hb1 (ix2 s (0 : Fin 1))
      = maxOver fun s' : Fin 4096 => maxOver fun j' : Fin 256 => L (ix2 s' j') := by
  refine (broadcastTo_11_a1_apply _ hb1 s 0).trans ?_
  refine (shapeCast_1_11_apply _ h11 0 0).trans ?_
  refine (colMax_apply _ hr0 hφ0 hacc0).trans ?_
  exact congrArg maxOver (funext fun s' => rowMax_column_apply L hr hφ hacc hk s')

/-! ## The common end: subtract a column of stabilisers, exponentiate, shift and scale, store as a block -/

/-- Entry `(0, 0, s, j)` of the stored block is the feature of the logit `L s j` less row `s`'s stabiliser `c s`. -/
theorem feature_block_apply (L : FVec Ideal S4096x256 .f32) (c : FVec Ideal S4096x1 .f32)
    (hb : S4096x1.Broadcasts S4096x256) (hs : S4096x256.ShapeCasts S1x1x4096x256) (s : Fin 4096) (j : Fin 256) :
    shapeCast S1x1x4096x256
        (mulf (broadcast S4096x256 (Scalar.ofBits (F := Ideal) .f32 0x3D800000#32))
          (addf (exp (subf L (broadcastTo S4096x256 c hb)))
            (broadcast S4096x256 (Scalar.ofBits (F := Ideal) .f32 0x38D1B717#32)))) hs
        (ix4 (0 : Fin 1) (0 : Fin 1) s j)
      = feature (L (ix2 s j) - c (ix2 s (0 : Fin 1))) := by
  refine (shapeCast_ab_11ab_apply _ hs 0 0 s j).trans ?_
  show Ideal.ofBits .f32 0x3D800000#32
      * (Ideal.exp (L (ix2 s j) - broadcastTo S4096x256 c hb (ix2 s j)) + Ideal.ofBits .f32 0x38D1B717#32) = _
  rw [broadcastTo_a1_ab_apply c hb s j]
  rfl

end Cert.Performer

end
-- ==== Proof.PayloadQuery.lean ====
/-
  The query features a block's body stores, entry by entry.

  From a block of tokens `y0 : [1, 1, 4096, 64]` and the projection rows `y1 : [256, 64]` the body forms the logits
  `∑_d y0 (0, 0, s, d) · (y1 (j, d) · c)`, adds to half the scaled squared norm of each token the maximum of its row of
  logits, and applies `a ↦ 256^(-1/2) · (exp a + ε)` to the logit less that sum. Entry `(0, 0, s, j)` of what it stores
  is therefore the query feature of token `s` on row `j`, in the spelling that subtracts the sum of the two
  stabilising terms at once.
-/
import proofs.«119411_j16381005266987_2_alg».proof.Proof.PayloadParts
import proofs.«119411_j16381005266987_2_alg».proof.Proof.Gen.KernelIdeal.Skeleton

noncomputable section

namespace Cert.Performer

open Idealize.ShloMosaic Idealize.ShloMosaic.ValueIdx

/-- The stored block at `(0, 0, s, j)` is the query feature of token `s` on projection row `j`. -/
theorem query_payload (y0 : Vec Ideal Cert.KernelIdeal.S1x1x4096x64 .f32) (y1 : Vec Ideal Cert.KernelIdeal.S256x64 .f32)
    (s : Fin 4096) (j : Fin 256) :
    Cert.KernelIdeal.Gen.k0_pay1 (F := Ideal) y0 y1 (ix4 (0 : Fin 1) (0 : Fin 1) s j)
      = queryFused (fun s d => y0 (ix4 (0 : Fin 1) (0 : Fin 1) s d)) (fun j d => y1 (ix2 j d)) s j := by
  unfold Cert.KernelIdeal.Gen.k0_pay1
  dsimp only
  refine (feature_block_apply _ _ _ _ s j).trans ?_
  unfold queryFused
  refine congrArg feature (congrArg₂ (· - ·) (logit_block_apply y0 y1 _ _ s j)
    ((addf_apply _ _ _).trans (congrArg₂ (· + ·) (halfSqNorm_block_apply y0 _ _ _ _ _ s) ?_)))
  refine (rowMax_column_apply _ _ _ _ _ s).trans ?_
  exact congrArg maxOver (funext fun j' => logit_block_apply y0 y1 _ _ s j')

end Cert.Performer

end
-- ==== Proof.PayloadKey.lean ====
/-
  The key features a block's body stores, entry by entry.

  The body forms the same logits and half squared norms as for the query features, but stabilises with ONE maximum for
  the whole block: the maximum, down the column of row maxima, of the logits of every token on every row. That number
  is viewed as a `[1, 1]` matrix, repeated down the 4096 rows and added to the column of half squared norms. Entry
  `(0, 0, s, j)` of what is stored is therefore the key feature of token `s` on row `j`, in the spelling that subtracts
  the sum of the two stabilising terms at once.
-/
import proofs.«119411_j16381005266987_2_alg».proof.Proof.PayloadParts
import proofs.«119411_j16381005266987_2_alg».proof.Proof.Gen.KernelIdeal.Skeleton

noncomputable section

namespace Cert.Performer

open Idealize.ShloMosaic Idealize.ShloMosaic.ValueIdx

/-- The stored block at `(0, 0, s, j)` is the key feature of token `s` on projection row `j`. -/
theorem key_payload (y0 : Vec Ideal Cert.KernelIdeal.S1x1x4096x64 .f32) (y1 : Vec Ideal Cert.KernelIdeal.S256x64 .f32)
    (s : Fin 4096) (j : Fin 256) :
    Cert.KernelIdeal.Gen.k1_pay1 (F := Ideal) y0 y1 (ix4 (0 : Fin 1) (0 : Fin 1) s j)
      = keyFused (fun s d => y0 (ix4 (0 : Fin 1) (0 : Fin 1) s d)) (fun j d => y1 (ix2 j d)) s j := by
  unfold Cert.KernelIdeal.Gen.k1_pay1
  dsimp only
  refine (feature_block_apply _ _ _ _ s j).trans ?_
  unfold keyFused
  refine congrArg feature (congrArg₂ (· - ·) (logit_block_apply y0 y1 _ _ s j)
    ((addf_apply _ _ _).trans (congrArg₂ (· + ·) (halfSqNorm_block_apply y0 _ _ _ _ _ s) ?_)))
  refine (headMax_column_apply _ _ _ _ _ _ _ _ _ _ s).trans ?_
  exact congrArg maxOver (funext fun s' => congrArg maxOver (funext fun j' => logit_block_apply y0 y1 _ _ s' j'))

end Cert.Performer

end
-- ==== Proof.LibMaxFold.lean ====
/-
  Maxima of finite families, from a start value.

  `Finset.fold max b f S` is the maximum of `b` and the values `f i`, `i ∈ S`. Because `max` is idempotent, the start
  value may be folded in any number of times: the maximum over a set of PAIRS is the maximum, over the first coordinate,
  of the maxima over the second, each taken from the same start value. Only the order is used (no bottom element, no
  injectivity of the pairing).
-/
import Mathlib.Data.Finset.Fold
import Mathlib.Order.Lattice

namespace Cert.Performer

/-- The maximum from `b` over a finite set `S` whose members are exactly the pairings `e a c`, `a ∈ A`, `c ∈ C`, is the
    maximum from `b` over `a ∈ A` of the maxima from `b` over `c ∈ C`: both sides are the least upper bound of `b` and
    the values `f (e a c)`. -/
theorem fold_max_pairs {β ι κ μ : Type*} [LinearOrder β] (b : β) (S : Finset ι) (A : Finset κ) (C : Finset μ)
    (e : κ → μ → ι) (hS : ∀ i, i ∈ S ↔ ∃ a ∈ A, ∃ c ∈ C, e a c = i) (f : ι → β) :
    S.fold max b f = A.fold max b fun a => C.fold max b fun c => f (e a c) := by
  apply le_antisymm
  · refine (Finset.fold_max_le _).2 ⟨(Finset.le_fold_max _).2 (Or.inl le_rfl), fun i hi => ?_⟩
    obtain ⟨a, ha, c, hc, rfl⟩ := (hS i).1 hi
    exact (Finset.le_fold_max _).2 (Or.inr ⟨a, ha, (Finset.le_fold_max _).2 (Or.inr ⟨c, hc, le_rfl⟩)⟩)
  · refine (Finset.fold_max_le _).2 ⟨(Finset.le_fold_max _).2 (Or.inl le_rfl), fun a ha => ?_⟩
    refine (Finset.fold_max_le _).2 ⟨(Finset.le_fold_max _).2 (Or.inl le_rfl), fun c hc => ?_⟩
    exact (Finset.le_fold_max _).2 (Or.inr ⟨e a c, (hS _).2 ⟨a, ha, c, hc, rfl⟩, le_rfl⟩)

/-- The same over a set whose members are exactly the values `e c`, `c ∈ C`, of ONE coordinate. -/
theorem fold_max_range {β ι μ : Type*} [LinearOrder β] (b : β) (S : Finset ι) (C : Finset μ)
    (e : μ → ι) (hS : ∀ i, i ∈ S ↔ ∃ c ∈ C, e c = i) (f : ι → β) :
    S.fold max b f = C.fold max b fun c => f (e c) := by
  apply le_antisymm
  · refine (Finset.fold_max_le _).2 ⟨(Finset.le_fold_max _).2 (Or.inl le_rfl), fun i hi => ?_⟩
    obtain ⟨c, hc, rfl⟩ := (hS i).1 hi
    exact (Finset.le_fold_max _).2 (Or.inr ⟨c, hc, le_rfl⟩)
  · refine (Finset.fold_max_le _).2 ⟨(Finset.le_fold_max _).2 (Or.inl le_rfl), fun c hc => ?_⟩
    exact (Finset.le_fold_max _).2 (Or.inr ⟨e c, (hS _).2 ⟨c, hc, rfl⟩, le_rfl⟩)

end Cert.Performer
-- ==== Proof.RefQuery.lean ====
/-
  The reference's query features, read at one index.

  At index `(b, h, s, j)` the reference's result is `256^(-1/2) · (exp (logit − ½‖·‖² − max) + ε)`, where the logit
  is the contraction over `d` of the scaled token against projection row `j`, the half squared norm is the scaled sum
  of squares of token `s`, and the maximum runs over the 256 rows for that token. Each of the three terms is read
  separately and the result assembled.
-/
import proofs.«119411_j16381005266987_2_alg».proof.Proof.Spec
import proofs.«119411_j16381005266987_2_alg».proof.Proof.LibMaxFold
import proofs.«119411_j16381005266987_2_alg».proof.Proof.Gen.ReferenceIdeal.Read

noncomputable section

open scoped BigOperators

namespace Cert.Performer

open Idealize.ShloMosaic Idealize.ShloMosaic.ValueIdx
open Cert.ReferenceIdeal Cert.ReferenceIdeal.Gen Cert.ReferenceIdeal.Read

/-- The scaled-token contraction at `(b, h, s, j)` is the token-scaled logit of token `s` on row `j`. -/
theorem ref_query_logit (x0 : (⟨S2x16x4096x64, .f32⟩ : BufTy).Contents (Elt Ideal)) (x2 : (⟨S256x64, .f32⟩ : BufTy).Contents (Elt Ideal))
    (b : Fin 2) (h : Fin 16) (s : Fin 4096) (j : Fin 256) :
    val_main_v2 (F := Ideal) x0 x2 (ix4 b h s j) = logitTokenScaled (headOf x0 b h) (rowsOf x2) s j := by
  rw [val_main_v2_apply]
  unfold logitTokenScaled
  refine Finset.sum_congr rfl fun k _ => ?_
  rw [val_main_v1_apply, val_main_v0_apply, val_main_cst_apply]
  have el : lidx_main_v2 (ix4 b h s j) k = ix4 b h s k := funext fun a => by
    match a with | ⟨0, _⟩ => rfl | ⟨1, _⟩ => rfl | ⟨2, _⟩ => rfl | ⟨3, _⟩ => rfl
  have er : ridx_main_v2 (ix4 b h s j) k = ix2 j k := funext fun a => by
    match a with | ⟨0, _⟩ => rfl | ⟨1, _⟩ => rfl
  rw [el, er]
  rfl

/-- The scaled sum of squares broadcast along the rows, at `(b, h, s, j)`, is half the scaled squared norm of token `s`. -/
theorem ref_query_norm (x0 : (⟨S2x16x4096x64, .f32⟩ : BufTy).Contents (Elt Ideal))
    (b : Fin 2) (h : Fin 16) (s : Fin 4096) (j : Fin 256) :
    val_main_v10 (F := Ideal) x0 (ix4 b h s j) = halfSqNorm (headOf x0 b h) s := by
  rw [val_main_v10_apply, val_main_v7_apply, val_main_v6_apply, val_main_cst_1_apply, val_main_v5_apply, val_main_v4_apply,
    val_main_cst_0_apply]
  unfold halfSqNorm
  simp only [Ideal.mulf_def, Ideal.ofBits_def, Ideal.ofBits_zero_f32, zero_add]
  refine congrArg (_ * ·) (Finset.sum_congr rfl fun k _ => ?_)
  rw [val_main_v3_apply]
  have e : idx_main_v4 (idx_main_v5 (idx_main_v10 (ix4 b h s j))) k = ix4 b h s k := funext fun a => by
    match a with | ⟨0, _⟩ => rfl | ⟨1, _⟩ => rfl | ⟨2, _⟩ => rfl | ⟨3, _⟩ => rfl
  rw [e]
  rfl

/-- A maximum, from the word of `−∞`, along the last axis of a `[2, 16, 4096, 256]` array, read at `(b, h, s)`: the
    maximum over the 256 coordinates `j'` of the array at `(b, h, s, j')`. -/
theorem rowMax_read (y : S2x16x4096x256.Idx → EReal) (b : Fin 2) (h : Fin 16) (s : Fin 4096) :
    Host.reduce (FloatOps.maximumf (F := Ideal) (φ := .f32)) y (val_main_cst_2 (F := Ideal))
        reducesTo_S2x16x4096x256_S2x16x4096_d3 h_S_ (ix3 b h s)
      = maxOver fun j' : Fin 256 => y (ix4 b h s j') := by
  rw [Host.reduce_eq_fold]
  unfold maxOver
  refine (fold_max_range _ _ Finset.univ (fun j' : Fin 256 => ix4 b h s j') (fun i => ?_) y)
  simp only [Finset.mem_filter, Finset.mem_univ, true_and]
  constructor
  · intro hi
    have h0 := congrArg (fun t : S2x16x4096.Idx => (t 0).val) hi
    have h1 := congrArg (fun t : S2x16x4096.Idx => (t 1).val) hi
    have h2 := congrArg (fun t : S2x16x4096.Idx => (t 2).val) hi
    simp only [reducesTo_S2x16x4096x256_S2x16x4096_d3.drop_apply_val_of_eq i 0 0,
      reducesTo_S2x16x4096x256_S2x16x4096_d3.drop_apply_val_of_eq i 1 1,
      reducesTo_S2x16x4096x256_S2x16x4096_d3.drop_apply_val_of_eq i 2 2] at h0 h1 h2
    refine ⟨i 3, ?_⟩
    refine (funext fun a => Fin.ext ?_)
    match a with
    | ⟨0, _⟩ => exact h0.symm
    | ⟨1, _⟩ => exact h1.symm
    | ⟨2, _⟩ => exact h2.symm
    | ⟨3, _⟩ => rfl
  · rintro ⟨j', rfl⟩
    refine funext fun a => Fin.ext ?_
    match a with
    | ⟨0, _⟩ => exact reducesTo_S2x16x4096x256_S2x16x4096_d3.drop_apply_val_of_eq _ 0 0
    | ⟨1, _⟩ => exact reducesTo_S2x16x4096x256_S2x16x4096_d3.drop_apply_val_of_eq _ 1 1
    | ⟨2, _⟩ => exact reducesTo_S2x16x4096x256_S2x16x4096_d3.drop_apply_val_of_eq _ 2 2

/-- The reference's query feature at `(b, h, s, j)`. -/
theorem ref_query (x0 : (⟨Cert.ReferenceIdeal.S2x16x4096x64, .f32⟩ : BufTy).Contents (Elt Ideal)) (x2 : (⟨Cert.ReferenceIdeal.S256x64, .f32⟩ : BufTy).Contents (Elt Ideal))
    (b : Fin 2) (h : Fin 16) (s : Fin 4096) (j : Fin 256) :
    Cert.ReferenceIdeal.Read.val_main_v18 (F := Ideal) x0 x2 (ix4 b h s j) = queryPlain (headOf x0 b h) (rowsOf x2) s j := by
  have hmax : val_main_v12 (F := Ideal) x0 x2 (ix4 b h s j)
      = maxOver fun j' => logitTokenScaled (headOf x0 b h) (rowsOf x2) s j' := by
    rw [val_main_v12_apply, val_main_v9_apply]
    have e : idx_main_v9 (idx_main_v12 (ix4 b h s j)) = ix3 b h s := funext fun a => by
      match a with | ⟨0, _⟩ => rfl | ⟨1, _⟩ => rfl | ⟨2, _⟩ => rfl
    rw [e]
    unfold val_main_v8
    rw [rowMax_read]
    exact congrArg maxOver (funext fun j' => ref_query_logit x0 x2 b h s j')
  rw [val_main_v18_apply, val_main_v17_apply, val_main_cst_4_apply, val_main_v16_apply, val_main_v15_apply,
    val_main_cst_3_apply, val_main_v14_apply, val_main_v13_apply, val_main_v11_apply, hmax, ref_query_norm,
    ref_query_logit]
  rfl

end Cert.Performer

end
-- ==== Proof.RefKey.lean ====
/-
  The reference's key features, read at one index.

  At index `(b, h, s, j)` the reference's result is `256^(-1/2) · (exp (logit − ½‖·‖² − max) + ε)`, where the logit
  is the contraction over `d` of the scaled token against projection row `j`, the half squared norm is the scaled sum
  of squares of token `s`, and the maximum runs over every token and every row of head `(b, h)`: a joint maximum over
  pairs `(s', j')`, which is the maximum over `s'` of the maxima over `j'`.
-/
import proofs.«119411_j16381005266987_2_alg».proof.Proof.Spec
import proofs.«119411_j16381005266987_2_alg».proof.Proof.LibMaxFold
import proofs.«119411_j16381005266987_2_alg».proof.Proof.Gen.ReferenceIdeal.Read

noncomputable section

open scoped BigOperators

namespace Cert.Performer

open Idealize.ShloMosaic Idealize.ShloMosaic.ValueIdx
open Cert.ReferenceIdeal Cert.ReferenceIdeal.Gen Cert.ReferenceIdeal.Read

/-- The scaled-token contraction at `(b, h, s, j)` is the token-scaled logit of token `s` on row `j`. -/
theorem ref_key_logit (x1 : (⟨S2x16x4096x64, .f32⟩ : BufTy).Contents (Elt Ideal)) (x2 : (⟨S256x64, .f32⟩ : BufTy).Contents (Elt Ideal))
    (b : Fin 2) (h : Fin 16) (s : Fin 4096) (j : Fin 256) :
    val_main_v21 (F := Ideal) x1 x2 (ix4 b h s j) = logitTokenScaled (headOf x1 b h) (rowsOf x2) s j := by
  rw [val_main_v21_apply]
  unfold logitTokenScaled
  refine Finset.sum_congr rfl fun k _ => ?_
  rw [val_main_v20_apply, val_main_v19_apply, val_main_cst_5_apply]
  have el : lidx_main_v21 (ix4 b h s j) k = ix4 b h s k := funext fun a => by
    match a with | ⟨0, _⟩ => rfl | ⟨1, _⟩ => rfl | ⟨2, _⟩ => rfl | ⟨3, _⟩ => rfl
  have er : ridx_main_v21 (ix4 b h s j) k = ix2 j k := funext fun a => by
    match a with | ⟨0, _⟩ => rfl | ⟨1, _⟩ => rfl
  rw [el, er]
  rfl

/-- The scaled sum of squares broadcast along the rows, at `(b, h, s, j)`, is half the scaled squared norm of token `s`. -/
theorem ref_key_norm (x1 : (⟨S2x16x4096x64, .f32⟩ : BufTy).Contents (Elt Ideal))
    (b : Fin 2) (h : Fin 16) (s : Fin 4096) (j : Fin 256) :
    val_main_v29 (F := Ideal) x1 (ix4 b h s j) = halfSqNorm (headOf x1 b h) s := by
  rw [val_main_v29_apply, val_main_v26_apply, val_main_v25_apply, val_main_cst_7_apply, val_main_v24_apply, val_main_v23_apply,
    val_main_cst_6_apply]
  unfold halfSqNorm
  simp only [Ideal.mulf_def, Ideal.ofBits_def, Ideal.ofBits_zero_f32, zero_add]
  refine congrArg (_ * ·) (Finset.sum_congr rfl fun k _ => ?_)
  rw [val_main_v22_apply]
  have e : idx_main_v23 (idx_main_v24 (idx_main_v29 (ix4 b h s j))) k = ix4 b h s k := funext fun a => by
    match a with | ⟨0, _⟩ => rfl | ⟨1, _⟩ => rfl | ⟨2, _⟩ => rfl | ⟨3, _⟩ => rfl
  rw [e]
  rfl

/-- A maximum, from the word of `−∞`, along the last TWO axes of a `[2, 16, 4096, 256]` array, read at `(b, h)`: the
    indices that drop to `(b, h)` are exactly the `(b, h, s', j')`, so the joint maximum is the maximum over the 4096
    coordinates `s'` of the maxima over the 256 coordinates `j'`. -/
theorem headMax_read (y : S2x16x4096x256.Idx → EReal) (b : Fin 2) (h : Fin 16) :
    Host.reduce (FloatOps.maximumf (F := Ideal) (φ := .f32)) y (val_main_cst_8 (F := Ideal))
        reducesTo_S2x16x4096x256_S2x16_d2_3 h_S_ (ix2 b h)
      = maxOver fun s' : Fin 4096 => maxOver fun j' : Fin 256 => y (ix4 b h s' j') := by
  rw [Host.reduce_eq_fold]
  unfold maxOver
  refine (fold_max_pairs _ _ Finset.univ Finset.univ (fun (s' : Fin 4096) (j' : Fin 256) => ix4 b h s' j') (fun i => ?_) y)
  simp only [Finset.mem_filter, Finset.mem_univ, true_and]
  constructor
  · intro hi
    have h0 := congrArg (fun t : S2x16.Idx => (t 0).val) hi
    have h1 := congrArg (fun t : S2x16.Idx => (t 1).val) hi
    simp only [reducesTo_S2x16x4096x256_S2x16_d2_3.drop_apply_val_of_eq i 0 0,
      reducesTo_S2x16x4096x256_S2x16_d2_3.drop_apply_val_of_eq i 1 1] at h0 h1
    refine ⟨i 2, i 3, ?_⟩
    refine (funext fun a => Fin.ext ?_)
    match a with
    | ⟨0, _⟩ => exact h0.symm
    | ⟨1, _⟩ => exact h1.symm
    | ⟨2, _⟩ => rfl
    | ⟨3, _⟩ => rfl
  · rintro ⟨s', j', rfl⟩
    refine funext fun a => Fin.ext ?_
    match a with
    | ⟨0, _⟩ => exact reducesTo_S2x16x4096x256_S2x16_d2_3.drop_apply_val_of_eq _ 0 0
    | ⟨1, _⟩ => exact reducesTo_S2x16x4096x256_S2x16_d2_3.drop_apply_val_of_eq _ 1 1

/-- The reference's key feature at `(b, h, s, j)`. -/
theorem ref_key (x1 : (⟨Cert.ReferenceIdeal.S2x16x4096x64, .f32⟩ : BufTy).Contents (Elt Ideal)) (x2 : (⟨Cert.ReferenceIdeal.S256x64, .f32⟩ : BufTy).Contents (Elt Ideal))
    (b : Fin 2) (h : Fin 16) (s : Fin 4096) (j : Fin 256) :
    Cert.ReferenceIdeal.Read.val_main_v37 (F := Ideal) x1 x2 (ix4 b h s j) = keyPlain (headOf x1 b h) (rowsOf x2) s j := by
  have hmax : val_main_v31 (F := Ideal) x1 x2 (ix4 b h s j)
      = maxOver fun s' => maxOver fun j' => logitTokenScaled (headOf x1 b h) (rowsOf x2) s' j' := by
    rw [val_main_v31_apply, val_main_v28_apply]
    have e : idx_main_v28 (idx_main_v31 (ix4 b h s j)) = ix2 b h := funext fun a => by
      match a with | ⟨0, _⟩ => rfl | ⟨1, _⟩ => rfl
    rw [e]
    unfold val_main_v27
    rw [headMax_read]
    exact congrArg maxOver (funext fun s' => congrArg maxOver (funext fun j' => ref_key_logit x1 x2 b h s' j'))
  rw [val_main_v37_apply, val_main_v36_apply, val_main_cst_10_apply, val_main_v35_apply, val_main_v34_apply,
    val_main_cst_9_apply, val_main_v33_apply, val_main_v32_apply, val_main_v30_apply, hmax, ref_key_norm,
    ref_key_logit]
  rfl

end Cert.Performer

end
-- ==== Proof.Spellings.lean ====
/-
  The two spellings of the random features agree when the tokens are real numbers.

  The logits agree with no hypothesis: `(c · x) · w = x · (w · c)` termwise, multiplication on the extended reals being
  commutative and associative. The stabilisers differ by `a − (n + M)` against `a − n − M`; on the extended reals
  `−(n + M) = −n − M` can fail when `n` is infinite, and holds whenever `n` is a real number, whatever `a` and `M`
  are. Here `n` is half the scaled squared norm of a token, `(1/16) · ∑_d x_d²`, a real number when the token's entries
  are. Nothing is asked of the projection rows, nor of the maxima.
-/
import proofs.«119411_j16381005266987_2_alg».proof.Proof.Spec

noncomputable section

open scoped BigOperators

namespace Cert.Performer

open Idealize.ShloMosaic

/-- The word `0x3D800000` is the real number one sixteenth. -/
theorem sixteenth_f32 : Ideal.ofBits .f32 0x3D800000#32 = (((1 : ℝ) / 16 : ℝ) : EReal) := by
  simp [Ideal.ofBits, Ideal.ieee, -EReal.coe_mul]; norm_num

/-- The coercion of a finite sum of reals is the sum of the coercions. -/
theorem coe_finsum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Subtracting a sum whose first term is a real number is subtracting the terms one after the other. -/
theorem sub_add_of_real (a M : EReal) (n : ℝ) : a - ((n : EReal) + M) = a - (n : EReal) - M := by
  rw [sub_eq_add_neg, EReal.neg_add (Or.inl (EReal.coe_ne_bot n)) (Or.inl (EReal.coe_ne_top n)),
    sub_eq_add_neg (-(n : EReal)) M, ← add_assoc, ← sub_eq_add_neg, ← sub_eq_add_neg]

variable (X : Tokens) (W : Rows)

/-- The scale may be multiplied into the token or into the projection row. -/
theorem logit_spellings (s : Fin 4096) (j : Fin 256) : logitTokenScaled X W s j = logitRowScaled X W s j :=
  Finset.sum_congr rfl fun d _ => by
    rw [mul_comm (Ideal.ofBits .f32 0x3EB504F3#32) (X s d), mul_assoc, mul_comm (Ideal.ofBits .f32 0x3EB504F3#32) (W j d)]

/-- Half the scaled squared norm of a token with real entries is a real number. -/
theorem halfSqNorm_real (s : Fin 4096) (hX : ∀ d, ∃ r : ℝ, X s d = (r : EReal)) : ∃ n : ℝ, halfSqNorm X s = (n : EReal) := by
  choose x hx using hX
  refine ⟨(1 : ℝ) / 16 * ∑ d : Fin 64, x d * x d, ?_⟩
  unfold halfSqNorm
  rw [sixteenth_f32, EReal.coe_mul, coe_finsum]
  refine congrArg _ (Finset.sum_congr rfl fun d _ => ?_)
  rw [hx d, EReal.coe_mul]

/-- A query token's two spellings agree when its entries are real. -/
theorem query_spellings (s : Fin 4096) (j : Fin 256) (hX : ∀ d, ∃ r : ℝ, X s d = (r : EReal)) :
    queryPlain X W s j = queryFused X W s j := by
  obtain ⟨n, hn⟩ := halfSqNorm_real X s hX
  unfold queryPlain queryFused
  rw [show (fun j' => logitTokenScaled X W s j') = fun j' => logitRowScaled X W s j' from
      funext fun j' => logit_spellings X W s j', logit_spellings, hn, sub_add_of_real]

/-- A key token's two spellings agree when its entries are real. -/
theorem key_spellings (s : Fin 4096) (j : Fin 256) (hX : ∀ d, ∃ r : ℝ, X s d = (r : EReal)) :
    keyPlain X W s j = keyFused X W s j := by
  obtain ⟨n, hn⟩ := halfSqNorm_real X s hX
  unfold keyPlain keyFused
  rw [show (fun s' => maxOver fun j' => logitTokenScaled X W s' j') = fun s' => maxOver fun j' => logitRowScaled X W s' j' from
      funext fun s' => congrArg maxOver (funext fun j' => logit_spellings X W s' j'), logit_spellings, hn, sub_add_of_real]

end Cert.Performer

end
-- ==== Proof.Finite.lean ====
/-
  Under the precondition every token entry is a real number. The precondition is the conjunction, over the three
  argument arrays, of "every entry is below +∞ in absolute value"; an extended real whose absolute value is below +∞ is
  neither infinity. Only the two token arrays are read here: the projection's entries are never asked to be finite.
-/
import proofs.«119411_j16381005266987_2_alg».proof.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Performer

open Idealize.ShloMosaic Idealize.ShloMosaic.ValueIdx

/-- The rank-0 shape has one index. -/
instance : Subsingleton Cert.Pre_finite_inputs.S_.Idx := ⟨fun a b => funext fun d => d.elim0⟩

/-- An extended real whose absolute value compares below the word of +∞ is a real number. -/
theorem real_of_abs_lt_inf (x : EReal)
    (h : FloatOps.cmpf (F := Ideal) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | coe r => exact ⟨r, rfl⟩
  | top => simp [Ideal.cmp] at h

variable [Cert.Pre_finite_inputs.Facts]

open Cert.Pre_finite_inputs in
/-- The precondition makes every entry of the two token arrays a real number. -/
theorem tokens_real (a0 a1 : FVec Ideal S2x16x4096x64 .f32) (a2 : FVec Ideal S256x64 .f32)
    (h : Cert.Pre_finite_inputs.fn (F := Ideal) a0 a1 a2 = fun _ => 1#1) :
    (∀ i, ∃ r : ℝ, a0 i = (r : EReal)) ∧ (∀ i, ∃ r : ℝ, a1 i = (r : EReal)) := by
  have h0 := congrFun h ix0
  dsimp only [Cert.Pre_finite_inputs.fn] at h0
  obtain ⟨h01, -⟩ := IntOp.andi_eq_one.mp h0
  obtain ⟨hA, hB⟩ := IntOp.andi_eq_one.mp h01
  refine ⟨fun i => ?_, fun i => ?_⟩
  · have e := Host.reduce_andi_all _ _ _ _ ix0 hA i
    rw [cmpf_apply, broadcastInDim_apply _ _ _ i ix0 (fun a => a.elim0)] at e
    exact real_of_abs_lt_inf (a0 i) e
  · have e := Host.reduce_andi_all _ _ _ _ ix0 hB i
    rw [cmpf_apply, broadcastInDim_apply _ _ _ i ix0 (fun a => a.elim0)] at e
    exact real_of_abs_lt_inf (a1 i) e

end Cert.Performer

end
-- ==== Proof.lean ====
/-
  The softmax kernel's positive random features, computed by two launches (query tokens, key tokens) of one body
  against the plain reference, equal as extended reals under the precondition that every input is finite.

  For a head with tokens `x_s ∈ ℝ⁶⁴` and projection rows `w_j ∈ ℝ⁶⁴`, both programs compute
  `256^(-1/2) · (exp (c · ⟨x_s, w_j⟩ − c²/2 · |x_s|² − M) + ε)`, `c = 64^(-1/4)`, with `M` the maximum of the scaled
  logits over `j` (query) or over the whole head (key). The launched body multiplies `c` into the projection row,
  contracts on the matrix unit from a zero accumulator, takes the key maximum as a maximum over tokens of the row maxima,
  and subtracts the sum `c²/2 · |x_s|² + M` once; the reference multiplies `c` into the token, contracts with a dot
  product, takes the key maximum jointly over tokens and rows, and subtracts the two terms one after the other. On the
  extended reals the products agree termwise (commutativity, associativity), the two maxima are one least upper bound,
  and `a − (n + M) = a − n − M` because `n = c²/2 · |x_s|²` is a real number when the token's entries are — the one place
  the precondition is used, and only for the tokens.

  The launched program's value is read off its run: each grid point writes back the features of its head, the 32 blocks
  tile each result array, and neither launch writes what the other reads. The reference's value is its run's term read
  at an index. The three frame claims are the runs with the results dropped; the idealization rewrote no operation.
-/
import proofs.«119411_j16381005266987_2_alg».proof.Defs
import proofs.«119411_j16381005266987_2_alg».proof.Proof.Gen.Kernel
import proofs.«119411_j16381005266987_2_alg».proof.Proof.Gen.Kernel.Skeleton
import proofs.«119411_j16381005266987_2_alg».proof.Proof.Gen.Kernel.Launch
import proofs.«119411_j16381005266987_2_alg».proof.Proof.Gen.Kernel.Points
import proofs.«119411_j16381005266987_2_alg».proof.Proof.Gen.Kernel.Frame
import proofs.«119411_j16381005266987_2_alg».proof.Proof.Gen.KernelIdeal
import proofs.«119411_j16381005266987_2_alg».proof.Proof.Gen.KernelIdeal.Skeleton
import proofs.«119411_j16381005266987_2_alg».proof.Proof.Gen.KernelIdeal.Launch
import proofs.«119411_j16381005266987_2_alg».proof.Proof.Gen.KernelIdeal.Points
import proofs.«119411_j16381005266987_2_alg».proof.Proof.Gen.KernelIdeal.Frame
import proofs.«119411_j16381005266987_2_alg».proof.Proof.Gen.ReferenceIdeal
import proofs.«119411_j16381005266987_2_alg».proof.Proof.Gen.Pre_finite_inputs
import proofs.«119411_j16381005266987_2_alg».proof.Proof.Gen.ReferenceIdeal.Run
import proofs.«119411_j16381005266987_2_alg».proof.Proof.Gen.ReferenceIdeal.Read
import proofs.«119411_j16381005266987_2_alg».proof.Proof.KernelValue
import proofs.«119411_j16381005266987_2_alg».proof.Proof.PayloadQuery
import proofs.«119411_j16381005266987_2_alg».proof.Proof.PayloadKey
import proofs.«119411_j16381005266987_2_alg».proof.Proof.RefQuery
import proofs.«119411_j16381005266987_2_alg».proof.Proof.RefKey
import proofs.«119411_j16381005266987_2_alg».proof.Proof.Spellings
import proofs.«119411_j16381005266987_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Performer

/-- The word-level program runs and leaves its arguments as launched. -/
theorem frame_kernel : @Cert.frame_Kernel Cert.Kernel.Gen.facts Cert.Pre_finite_inputs.Gen.facts :=
  fun m ρ _ => Cert.Kernel.Gen.frame m ρ

/-- So does the idealized program. -/
theorem frame_kernelIdeal : @Cert.frame_KernelIdeal Cert.KernelIdeal.Gen.facts Cert.Pre_finite_inputs.Gen.facts :=
  fun m ρ _ => Cert.KernelIdeal.Gen.frame m ρ

/-- The reference's frame is its run with the two results dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- The launched program ends at the fused spelling of the features of its arguments, the reference at the plain
    spelling of the features of its own, which agree with the launched program's; the two spellings are one function
    where the tokens are real, which the precondition gives. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => queryArray (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => keyArray (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Features.run_features m ρ query_payload key_payload, ?_⟩
  refine (θ_run Cert.ReferenceIdeal.defs _ _).mono (fun _ h c => ⟨?_, ?_, (h c).2.2⟩)
    (Cert.ReferenceIdeal.Value.run (F := Ideal) m' ρ')
  · obtain ⟨hq, -⟩ := @tokens_real Cert.Pre_finite_inputs.Gen.facts _ _ _ (hpre c)
    rw [(h c).1, Cert.ReferenceIdeal.Read.val_main_v18_eq, (hagree c).1, (hagree c).2.2]
    funext i
    obtain ⟨b, hh, s, j, rfl⟩ : ∃ (b : Fin 2) (hh : Fin 16) (s : Fin 4096) (j : Fin 256), i = ix4 b hh s j :=
      ⟨i 0, i 1, i 2, i 3, eq_ix4 i⟩
    rw [ref_query]
    exact query_spellings _ _ s j fun d => hq _
  · obtain ⟨-, hk⟩ := @tokens_real Cert.Pre_finite_inputs.Gen.facts _ _ _ (hpre c)
    rw [(h c).2.1, Cert.ReferenceIdeal.Read.val_main_v37_eq, (hagree c).2.1, (hagree c).2.2]
    funext i
    obtain ⟨b, hh, s, j, rfl⟩ : ∃ (b : Fin 2) (hh : Fin 16) (s : Fin 4096) (j : Fin 256), i = ix4 b hh s j :=
      ⟨i 0, i 1, i 2, i 3, eq_ix4 i⟩
    rw [ref_key]
    exact key_spellings _ _ s j fun d => hk _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
